-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  main_v3
-- ==== Kernel.lean ====
abbrev S8x2048x1024 : Shape := ⟨3, ![8, 2048, 1024]⟩
abbrev S8x1x1024 : Shape := ⟨3, ![8, 1, 1024]⟩
abbrev S1x512x1024 : Shape := ⟨3, ![1, 512, 1024]⟩
abbrev S1x2048x1024 : Shape := ⟨3, ![1, 2048, 1024]⟩
abbrev S1x1x1024 : Shape := ⟨3, ![1, 1, 1024]⟩
abbrev S1x1024 : Shape := ⟨2, ![1, 1024]⟩
abbrev S512x1024 : Shape := ⟨2, ![512, 1024]⟩
abbrev S2048x1024 : Shape := ⟨2, ![2048, 1024]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S1024 : Shape := ⟨1, ![1024]⟩
abbrev S8x1024 : Shape := ⟨2, ![8, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S8x1x1024, .f32⟩
  | .hbm, ⟨3, _⟩ => ⟨S8x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1x1024, .f32⟩
  | .local _ .vmem, ⟨5, _⟩ => ⟨S1x1x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  reduces_S512x1024_S1024 : S512x1024.Reduces [0] S1024
  shapeCasts_S1024_S1x1024 : S1024.ShapeCasts S1x1024
  shapeCasts_S8x1x1024_S8x1024 : S8x1x1024.ShapeCasts S8x1024
  dot_S512x1024_S1024x2048_S512x2048_1_0_0_1_n_n_wf : DotDims.WF S512x1024 S1024x2048 S512x2048 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .bf16 = 32 ∨ (Rect.block (s := S8x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .bf16 = 32 ∨ (Rect.block (s := S8x2048x1024) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1024 : Shape := ⟨2, ![8, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S_, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x2048x1, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x1024, .f32⟩
  | .hbm, ⟨17, _⟩ => ⟨S_, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x1024_S8x1024_d1 : S8x2048x1024.ReducesTo [1] S8x1024
  bcast_S_S8x1024 : S_.BroadcastsInDim S8x1024 (![] : Fin 0 → Fin S8x1024.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.KernelRuns.lean ====
/-
  The kernel body of `Kernel`'s one region, run on whole staging buffers.

  The region's grid has 32 points `(b, j)`, `b < 8` a batch, `j < 4` a tile of 512 query rows. Window 0 is the
  tile `x[b, 512 j .. 512 j + 511, :]`, window 1 the whole batch `x[b, :, :]` (both read from the one converted
  array, which the two windows share), window 2 the row `out[b, 0, :]`, which the body clears when `j = 0` and then
  adds its tile's contribution to at every `j`. So the body has two control cases: `j = 0` (clear, then accumulate
  into the cleared row) and `j ≠ 0` (accumulate into what the point before left).

  Here: the buffers' contents when the region is entered, `@main` reduced to the region and the line after it, the
  windows' blocks, the branch condition in closed form, and the body's run in each of the two cases.
-/
import proofs.«111131_j1657857376449_2_alg».proof.Proof.Gen.Kernel.Launch
import proofs.«111131_j1657857376449_2_alg».proof.Proof.Gen.Kernel.Skeleton
import proofs.«111131_j1657857376449_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffers when the region is entered: the launch contents after the one line before the region (the
    change of format of the argument). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- `@main` is the line before the region, the region, the line after it: it reduces to the region continued by the
    later line, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (an unfetched window's
    block index has not moved): window 0, -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- and window 1. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one condition, from the grid coordinates: the tile index is zero. -/
abbrev cond0 (i : grid0.Coords) : Prop := (Scalar.cmpi .ne (Scalar.extui (Scalar.cmpi .eq (BitVec.ofNat 32 (i 1).val) 0#32)) 0#32) = 1#1
/-- It holds at the points whose position is a multiple of four. -/
theorem hcond0 : ∀ t : Fin cfg0.N, cond0 (grid0.coords t) ↔ t.val % 4 = 0 :=
  (by decide +kernel : ∀ t : Fin grid0.N, cond0 (grid0.coords t) ↔ t.val % 4 = 0)

/-! ## The staging buffers at a point -/

/-- One staging buffer of the output window, through which its contents are stated. -/
abbrev VO2 : View sig .tc .vmem S1x1x1024 .f32 := (Memref.whole cc0_stg2_0 : Memref sig .tc .vmem S1x1x1024 .f32).view
abbrev ms0 (t : Fin cfg0.N) : Memref sig .tc .vmem S1x512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)

/-! ## The body's run, case by case -/

set_option maxHeartbeats 1000000 in
/-- The first tile of a batch: on whole staging buffers, the two inputs' at `x0` and `x1` and the output's at anything,
    the body runs to its end with the inputs' buffers as they were and the output's holding the pieces the two stores
    wrote (the cleared row, then the accumulated one). -/
noncomputable def kernelRunA (c : Dev nD) (i : grid0.Coords) (arg2 : Memref sig .tc .vmem S1x512x1024 .bf16) (harg2 : arg2.IsWhole)
    (arg3 : Memref sig .tc .vmem S1x2048x1024 .bf16) (harg3 : arg3.IsWhole) (arg4 : Memref sig .tc .vmem S1x1x1024 .f32) (harg4 : arg4.IsWhole)
    (hc0 : cond0 i) (x0 : Vec F S1x512x1024 .bf16) (x1 : Vec F S1x2048x1024 .bf16) :
    { L2 : List (View.Piece (Elt F) S1x1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__attn_pool_kernel i arg2 harg2 arg3 harg3 arg4 harg4) K } := by
  refine ⟨?_, fun E K => ?run⟩
  case run =>
    simp only [cc0__attn_pool_kernel_eq_skeleton]; unfold cc0__attn_pool_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A later tile: the output's buffer at the running contents `xo`; the body's one store writes the accumulated row. -/
noncomputable def kernelRunB (c : Dev nD) (i : grid0.Coords) (arg2 : Memref sig .tc .vmem S1x512x1024 .bf16) (harg2 : arg2.IsWhole)
    (arg3 : Memref sig .tc .vmem S1x2048x1024 .bf16) (harg3 : arg3.IsWhole) (arg4 : Memref sig .tc .vmem S1x1x1024 .f32) (harg4 : arg4.IsWhole)
    (hc0 : ¬cond0 i) (x0 : Vec F S1x512x1024 .bf16) (x1 : Vec F S1x2048x1024 .bf16) (xo : Vec F S1x1x1024 .f32) :
    { L2 : List (View.Piece (Elt F) S1x1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__attn_pool_kernel i arg2 harg2 arg3 harg3 arg4 harg4) K } := by
  refine ⟨?_, fun E K => ?run⟩
  case run =>
    simp only [cc0__attn_pool_kernel_eq_skeleton]; unfold cc0__attn_pool_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.KernelFrame.lean ====
/-
  The run of `Kernel`'s region, and of `@main` around it.

  After the body at grid position `n` the output window's staging buffer holds `outsAt n`: at a batch's first tile
  (`n % 4 = 0`) what the first-tile case leaves from the two input blocks, at a later tile what the later-tile case
  leaves from the two input blocks and `outsAt (n - 1)` (the buffer is written back only after a batch's last tile, so
  between two tiles of one batch it keeps what the body left). The two input windows read ONE array: each holds it at
  half the full share, which is all a window that only fetches needs. From this proof data the body's obligation at
  every point is the case's run, and the launch gives the run of `@main`: the row array ends at the proof data's
  `arrAt`, the result is its reshape, and the argument is untouched.
-/
import proofs.«111131_j1657857376449_2_alg».proof.Proof.KernelRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer -/

/-- The first-tile case's two stores each write the whole row, so its pieces cover the block. -/
theorem coverA (c : Dev nD) (i : grid0.Coords) (arg2 : Memref sig .tc .vmem S1x512x1024 .bf16) (harg2 : arg2.IsWhole)
    (arg3 : Memref sig .tc .vmem S1x2048x1024 .bf16) (harg3 : arg3.IsWhole) (arg4 : Memref sig .tc .vmem S1x1x1024 .f32) (harg4 : arg4.IsWhole)
    (hc0 : cond0 i) (x0 : Vec F S1x512x1024 .bf16) (x1 : Vec F S1x2048x1024 .bf16) (y : S1x1x1024.Idx) :
    ∃ pc ∈ (kernelRunA c i arg2 harg2 arg3 harg3 arg4 harg4 hc0 x0 x1).1, y ∈ pc.1.set :=
  View.cover_of_tiledL (kernelRunA c i arg2 harg2 arg3 harg3 arg4 harg4 hc0 x0 x1).1 S1x1x1024.size (by sl_kernel_rfl) y

/-- What the first-tile case leaves: its pieces read back. -/
def outA (c : Dev nD) (i : grid0.Coords) (arg2 : Memref sig .tc .vmem S1x512x1024 .bf16) (harg2 : arg2.IsWhole)
    (arg3 : Memref sig .tc .vmem S1x2048x1024 .bf16) (harg3 : arg3.IsWhole) (arg4 : Memref sig .tc .vmem S1x1x1024 .f32) (harg4 : arg4.IsWhole)
    (hc0 : cond0 i) (x0 : Vec F S1x512x1024 .bf16) (x1 : Vec F S1x2048x1024 .bf16) : Vec F S1x1x1024 .f32 :=
  VO2.read (Elt F) (VO2.writes (Elt F) VO2.junk (kernelRunA c i arg2 harg2 arg3 harg3 arg4 harg4 hc0 x0 x1).1)

/-- The later-tile case's one store writes the whole row. -/
theorem coverB (c : Dev nD) (i : grid0.Coords) (arg2 : Memref sig .tc .vmem S1x512x1024 .bf16) (harg2 : arg2.IsWhole)
    (arg3 : Memref sig .tc .vmem S1x2048x1024 .bf16) (harg3 : arg3.IsWhole) (arg4 : Memref sig .tc .vmem S1x1x1024 .f32) (harg4 : arg4.IsWhole)
    (hc0 : ¬cond0 i) (x0 : Vec F S1x512x1024 .bf16) (x1 : Vec F S1x2048x1024 .bf16) (xo : Vec F S1x1x1024 .f32) (y : S1x1x1024.Idx) :
    ∃ pc ∈ (kernelRunB c i arg2 harg2 arg3 harg3 arg4 harg4 hc0 x0 x1 xo).1, y ∈ pc.1.set :=
  View.cover_of_tiledL (kernelRunB c i arg2 harg2 arg3 harg3 arg4 harg4 hc0 x0 x1 xo).1 S1x1x1024.size (by sl_kernel_rfl) y

/-- What the later-tile case leaves. -/
def outB (c : Dev nD) (i : grid0.Coords) (arg2 : Memref sig .tc .vmem S1x512x1024 .bf16) (harg2 : arg2.IsWhole)
    (arg3 : Memref sig .tc .vmem S1x2048x1024 .bf16) (harg3 : arg3.IsWhole) (arg4 : Memref sig .tc .vmem S1x1x1024 .f32) (harg4 : arg4.IsWhole)
    (hc0 : ¬cond0 i) (x0 : Vec F S1x512x1024 .bf16) (x1 : Vec F S1x2048x1024 .bf16) (xo : Vec F S1x1x1024 .f32) : Vec F S1x1x1024 .f32 :=
  VO2.read (Elt F) (VO2.writes (Elt F) VO2.junk (kernelRunB c i arg2 harg2 arg3 harg3 arg4 harg4 hc0 x0 x1 xo).1)

/-! ## The accumulation, point by point -/

/-- What the output's staging buffer holds after the body at position `n`. -/
def outsAt (c : Dev nD) : (n : ℕ) → n < cfg0.N → Vec F S1x1x1024 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((hcond0 ⟨0, hn⟩).mpr (Nat.zero_mod _)) (iblk m c 0 ⟨0, hn⟩) (iblk m c 1 ⟨0, hn⟩)
  | n + 1, hn =>
    if h0 : (n + 1) % 4 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((hcond0 ⟨n + 1, hn⟩).mpr h0) (iblk m c 0 ⟨n + 1, hn⟩) (iblk m c 1 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((hcond0 ⟨n + 1, hn⟩).mp h)) (iblk m c 0 ⟨n + 1, hn⟩) (iblk m c 1 ⟨n + 1, hn⟩) (outsAt c n (Nat.lt_of_succ_lt hn))

/-- `outsAt` at a first tile. -/
theorem outsAt_A (c : Dev nD) (t : Fin cfg0.N) (h0 : t.val % 4 = 0) :
    outsAt m c t.val t.isLt = outA c (grid0.coords t) (ms0 t) (hs0 t) (ms1 t) (hs1 t) (ms2 t) (hs2 t) ((hcond0 t).mpr h0) (iblk m c 0 t) (iblk m c 1 t) := by
  obtain ⟨n, hn⟩ := t
  cases n with
  | zero => exact rfl
  | succ n => exact (dif_pos h0).trans rfl

/-- `outsAt` at a later tile: over what the point before left. -/
theorem outsAt_B (c : Dev nD) (t : Fin cfg0.N) (h0 : ¬t.val % 4 = 0) :
    outsAt m c t.val t.isLt = outB c (grid0.coords t) (ms0 t) (hs0 t) (ms1 t) (hs1 t) (ms2 t) (hs2 t) (fun h => h0 ((hcond0 t).mp h)) (iblk m c 0 t) (iblk m c 1 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The pipeline's proof data on core `c`: the arrays as the region finds them; after the body each input's buffer
    at its block and the output's at `outsAt`; the invariant the scoped buffers no window stages (there are none);
    nothing owed; the two windows on the shared array at its two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.scopedRest spec0 c
  q w := match w with
    | ⟨0, _⟩ => fullShare.left
    | ⟨1, _⟩ => fullShare.right
    | ⟨_ + 2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-- At a later tile the output's buffer holds what the body left at the point before: it was not written back
    between (a row is written back after its batch's last tile only). -/
theorem before2_B (c : Dev nD) (t : Fin cfg0.N) (h0 : ¬t.val % 4 = 0) (d) :
    (dats m 0 c).before 2 t d = (outsAt m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
/-- The body at any point: the inputs' buffers hold their blocks; the position says which case the point is in; at a
    later tile the output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  have hN : t.val < 32 := lt_of_lt_of_eq t.isLt (show cfg0.N = 32 from N_0)
  by_cases h0 : t.val % 4 = 0
  · rw [outsAt_A m c t h0]
    unfold outA
    iintro ⟨HΦ, Ho, ⟨%d0, H0⟩, ⟨%d1, H1⟩, ⟨%d2, H2⟩⟩
    iapply ((kernelRunA c (grid0.coords t) _ _ _ _ _ _ ((hcond0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverA c _ _ _ _ _ _ _ _ _ _)
  · rw [outsAt_B m c t h0]
    simp only [before2_B m c t h0]
    unfold outB
    iintro ⟨HΦ, Ho, ⟨%d0, H0⟩, ⟨%d1, H1⟩, ⟨%d2, H2⟩⟩
    iapply ((kernelRunB c (grid0.coords t) _ _ _ _ _ _ (fun h => h0 ((hcond0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelLaunch.lean ====
/-
  The launch of `Kernel`'s region and the run of `@main`.

  The two input windows are blocks of ONE array. The launch hands the pipeline that array whole; it is dealt to the
  two windows as its two half shares (a window that is only fetched needs no more), the output window's array whole.
  After the region the row array is reshaped into the result; the argument array is touched by nothing. So every
  execution of `@main` ends with the result at the reshape of the row array's final contents `arrAt 2 N`, and the
  argument as it was.
-/
import proofs.«111131_j1657857376449_2_alg».proof.Proof.KernelFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays behind the windows: the converted argument (two windows) and the row array. -/
theorem arrRefs_eq : (Finset.univ.image (Pipeline.arrRef spec0) : Finset (Ref sig .tc)) = {main_v0, main_v1} := by decide

/-- The windows' arrays are whole buffers: the proof data's arrays as plain points-tos, each at its share. -/
theorem arrays_pts (c : Dev nD) (Fw : (w : Fin cfg0.W) → Buf (Elt F) ((cfg0.win w).arr.view.loc (c.tc : Thread nD τ))) :
    (dats m 0 c).arrays Fw = bigSep Finset.univ fun w => (((c.tc : Thread nD τ).loc (Pipeline.arrRef spec0 w)) ↦{(dats m 0 c).share w} Fw w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The shared array's full share dealt to its two windows, the row array whole to the third. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_pts]
  unfold Pipeline.arrBufs
  rw [arrRefs_eq, bigSep_insert (by decide), BI.bigSep_singleton, bigSep_W0, share0, share1, share2]
  refine (show (iprop(((c.tc : Thread nD τ).loc main_v0 ↦{fullShare} V m c main_v0) ∗ ((c.tc : Thread nD τ).loc main_v1 ↦{fullShare} V m c main_v1)) : sProp 𝕄) ⊢ _ from ?_)
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-! ## The line after the region -/

/-- The row array's final contents reshaped `[8, 1, 1024] → [8, 1024]`: what the line after the region writes into the
    result. -/
def tailVal (c : Dev nD) : Buf (Elt F) ((c.tc : Thread nD τ).loc main_v2) :=
  shapeCast S8x1024 ((dats m 0 c).arrAt 2 cfg0.N) shapeCasts_S8x1x1024_S8x1024

/-- The buffers that bypass the region, as it is entered: the argument and the (still unwritten) result; -/
def Zin (c : Dev nD) : sProp 𝕄 :=
  iprop((((c.tc : Thread nD τ).loc main_arg0) ↦{fullShare} V m c main_arg0) ∗ (((c.tc : Thread nD τ).loc main_v2) ↦{fullShare} V m c main_v2))
/-- and after the line that follows the region. -/
def Zfin (c : Dev nD) : sProp 𝕄 :=
  iprop((((c.tc : Thread nD τ).loc main_arg0) ↦{fullShare} V m c main_arg0) ∗ (((c.tc : Thread nD τ).loc main_v2) ↦{fullShare} tailVal m c))

/-- The two buffers the reshape touches. -/
abbrev tailSet : Finset (DevRef τ sig) := {Proc.devRef .tc main_v1, Proc.devRef .tc main_v2}

/-- The contents the reshape runs from: the row array at its final contents, everything else as the region found it. -/
def tailW (c : Dev nD) : Valuation τ sig (Elt F) :=
  Function.update (V0 m c) (Proc.devRef .tc main_v1) ((dats m 0 c).arrAt 2 cfg0.N)

theorem tailW_v1 (c : Dev nD) : tailW m c (Proc.devRef .tc main_v1) = (dats m 0 c).arrAt 2 cfg0.N := by
  unfold tailW; exact Function.update_self ..
theorem tailW_v2 (c : Dev nD) : tailW m c (Proc.devRef .tc main_v2) = V m c main_v2 := by
  unfold tailW; exact Function.update_of_ne (by decide) ..

theorem tail_after_v1 (c : Dev nD) :
    StableHlo.after (List.flatten [hostOps1]) (tailW m c) (Proc.devRef .tc main_v1) = (dats m 0 c).arrAt 2 cfg0.N := by
  show StableHlo.after hostOps1 (tailW m c) (Proc.devRef .tc main_v1) = _
  after_results
  exact tailW_v1 m c

theorem tail_after_v2 (c : Dev nD) :
    StableHlo.after (List.flatten [hostOps1]) (tailW m c) (Proc.devRef .tc main_v2) = tailVal m c := by
  show StableHlo.after hostOps1 (tailW m c) (Proc.devRef .tc main_v2) = _
  after_results
  rw [tailW_v1]
  rfl

theorem held_tail (c : Dev nD) (W : Valuation τ sig (Elt F)) :
    (StableHlo.held (c.tc : Thread nD τ) tailSet W : sProp 𝕄)
      = iprop((((c.tc : Thread nD τ).loc main_v1) ↦{fullShare} W (Proc.devRef .tc main_v1)) ∗ (((c.tc : Thread nD τ).loc main_v2) ↦{fullShare} W (Proc.devRef .tc main_v2))) := by
  unfold StableHlo.held tailSet; rw [bigSep_insert (by decide), BI.bigSep_singleton]; rfl

/-- The line after the region: from the region's exit — the arrays at their final contents, the bypassing buffers as
    the region found them — the reshape runs and leaves the result at the row array's final contents reshaped. -/
theorem htail (c : Dev nD) (Q' : PUnit → sProp 𝕄) :
    iprop((iprop((dats m 0 c).arrays ((dats m 0 c).arrAt · cfg0.N) ∗ Zfin m c) -∗ Q' ⟨⟩)
        ∗ boundary (c.tc : Thread nD τ) ∗ (dats m 0 c).arrays ((dats m 0 c).arrAt · cfg0.N) ∗ Zin m c)
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_pts, bigSep_W0, share0, share1, share2]
  unfold Zin Zfin
  iintro ⟨Hk, Hb, ⟨Ha0, Ha1, Ha2⟩, ⟨Hz0, Hz2⟩⟩
  ihave Hh : (StableHlo.held (c.tc : Thread nD τ) tailSet (tailW m c) : sProp 𝕄) $$ [Ha2 Hz2]
  · rw [held_tail, tailW_v1, tailW_v2]
    isplitl [Ha2]; · iexact Ha2
    iexact Hz2
  iapply (Pipeline.wp_seqs_then (fun q => (cfgs q).toPCfg (Val := Elt F)) defs₀ Variants.none c tailSet [] [hostOps1]
    (by intro ops hops op hop
        simp only [List.mem_cons, List.mem_nil_iff, or_false] at hops
        subst hops
        simp only [hostOps1, List.mem_cons, List.mem_nil_iff, or_false] at hop
        subst hop
        exact Finset.Subset.refl _)
    (by intro ops hops op hop
        simp only [List.mem_cons, List.mem_nil_iff, or_false] at hops
        subst hops
        exact (List.forall_iff_forall_mem.mp hostOps1_fresh) op hop)
    (tailW m c)) $$ [Hb Hh]
  · isplitl [Hb]; · iexact Hb
    iexact Hh
  iintro Hb
  rw [Pipeline.chain_nil, wp_pure, held_tail, tail_after_v1, tail_after_v2]
  imodintro
  iapply Hk
  icases Hb with ⟨-, ⟨Ha2, Hz2⟩⟩
  isplitl [Ha0 Ha1 Ha2]
  · isplitl [Ha0]; · iexact Ha0
    isplitl [Ha1]; · iexact Ha1
    iexact Ha2
  isplitl [Hz0]; · iexact Hz0
  iexact Hz2

/-! ## The run -/

set_option backward.isDefEq.respectTransparency.types false in
/-- Every weakly fair execution of `@main` terminates, faulting nowhere, with the result at the reshape of the row
    array's final contents and the argument as it was. -/
theorem run_main : θ_run defs (onTc (τ := τ) (main (F := F))) ⟨m, fun _ => 0, ρ⟩ (fun r => ∀ c : Dev nD,
      r.2.mem ((c.tc : Thread nD τ).loc main_v2) = tailVal m c
      ∧ r.2.mem ((c.tc : Thread nD τ).loc main_arg0) = m ((c.tc : Thread nD τ).loc main_arg0)) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := .rfl)
    (V := V m) (hmain := hmain m Variants.none) (hsplit := hsplit m) (hpf := fun _ k => k.elim0)
    (X := fun _ => iprop(emp)) (Y := fun _ => iprop(emp)) (Z := Zin m) (Z' := Zfin m)
    (hX := fun c => by
      rw [Pipeline.unscopedRestP_none, unscopedRest0_eq]
      unfold Zin
      iintro H
      isplitr; · iempintro
      iexact H)
    (hin := fun c => by
      show _ ⊢ (Pipeline.scopedRest (Ix := Unit) (Name := ℕ) (U := UR sig nD τ) (Lvl := ℕ) (Val := Elt F) spec0 c : sProp 𝕄)
      iintro ⟨-, -, H⟩
      iexact H)
    (hout := fun c => by
      show (Pipeline.scopedRest (Ix := Unit) (Name := ℕ) (U := UR sig nD τ) (Lvl := ℕ) (Val := Elt F) spec0 c : sProp 𝕄) ⊢ _
      iintro H
      isplitr; · iempintro
      iexact H)
    (htail := htail m)
    (QY := fun c s => s.mem ((c.tc : Thread nD τ).loc main_arg0) = m ((c.tc : Thread nD τ).loc main_arg0)
      ∧ s.mem ((c.tc : Thread nD τ).loc main_v2) = tailVal m c)
    (hY := fun c s' => by
      unfold Zfin
      iintro ⟨-, ⟨Ha, Hv⟩, HSI⟩
      icombine HSI Ha gives %ha
      icombine HSI Hv gives %hv
      imodintro
      isplitr
      · ipureintro
        exact ⟨Buf.eq_of_forall_mem_univ ha, Buf.eq_of_forall_mem_univ hv⟩
      · iexact HSI)
    (hQ := fun s h c => ⟨(h c).2.2.2, (h c).2.2.1⟩)

end Cert.Kernel.Hand

end
-- ==== Proof.KernelIdealRuns.lean ====
/-
  The kernel body of `KernelIdeal`'s one region, run on whole staging buffers.

  The region's grid has 32 points `(b, j)`, `b < 8` a batch, `j < 4` a tile of 512 query rows. Window 0 is the
  tile `x[b, 512 j .. 512 j + 511, :]`, window 1 the whole batch `x[b, :, :]` (both read from the one converted
  array, which the two windows share), window 2 the row `out[b, 0, :]`, which the body clears when `j = 0` and then
  adds its tile's contribution to at every `j`. So the body has two control cases: `j = 0` (clear, then accumulate
  into the cleared row) and `j ≠ 0` (accumulate into what the point before left).

  Here: the buffers' contents when the region is entered, `@main` reduced to the region and the line after it, the
  windows' blocks, the branch condition in closed form, and the body's run in each of the two cases.
-/
import proofs.«111131_j1657857376449_2_alg».proof.Proof.Gen.KernelIdeal.Launch
import proofs.«111131_j1657857376449_2_alg».proof.Proof.Gen.KernelIdeal.Skeleton
import proofs.«111131_j1657857376449_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffers when the region is entered: the launch contents after the one line before the region (the
    change of format of the argument). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- `@main` is the line before the region, the region, the line after it: it reduces to the region continued by the
    later line, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (an unfetched window's
    block index has not moved): window 0, -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- and window 1. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one condition, from the grid coordinates: the tile index is zero. -/
abbrev cond0 (i : grid0.Coords) : Prop := (Scalar.cmpi .ne (Scalar.extui (Scalar.cmpi .eq (BitVec.ofNat 32 (i 1).val) 0#32)) 0#32) = 1#1
/-- It holds at the points whose position is a multiple of four. -/
theorem hcond0 : ∀ t : Fin cfg0.N, cond0 (grid0.coords t) ↔ t.val % 4 = 0 :=
  (by decide +kernel : ∀ t : Fin grid0.N, cond0 (grid0.coords t) ↔ t.val % 4 = 0)

/-! ## The staging buffers at a point -/

/-- One staging buffer of the output window, through which its contents are stated. -/
abbrev VO2 : View sig .tc .vmem S1x1x1024 .f32 := (Memref.whole cc0_stg2_0 : Memref sig .tc .vmem S1x1x1024 .f32).view
abbrev ms0 (t : Fin cfg0.N) : Memref sig .tc .vmem S1x512x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024 .f32 := win0_2.stage (cfg0.slots t 2)
abbrev hs2 (t : Fin cfg0.N) : (ms2 t).IsWhole := hstage0_2 ((cfg0.slots t 2).cast nbuf0_2)

/-! ## The body's run, case by case -/

set_option maxHeartbeats 1000000 in
/-- The first tile of a batch: on whole staging buffers, the two inputs' at `x0` and `x1` and the output's at anything,
    the body runs to its end with the inputs' buffers as they were and the output's holding the pieces the two stores
    wrote (the cleared row, then the accumulated one). -/
noncomputable def kernelRunA (c : Dev nD) (i : grid0.Coords) (arg2 : Memref sig .tc .vmem S1x512x1024 .bf16) (harg2 : arg2.IsWhole)
    (arg3 : Memref sig .tc .vmem S1x2048x1024 .bf16) (harg3 : arg3.IsWhole) (arg4 : Memref sig .tc .vmem S1x1x1024 .f32) (harg4 : arg4.IsWhole)
    (hc0 : cond0 i) (x0 : Vec F S1x512x1024 .bf16) (x1 : Vec F S1x2048x1024 .bf16) :
    { L2 : List (View.Piece (Elt F) S1x1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__attn_pool_kernel i arg2 harg2 arg3 harg3 arg4 harg4) K } := by
  refine ⟨?_, fun E K => ?run⟩
  case run =>
    simp only [cc0__attn_pool_kernel_eq_skeleton]; unfold cc0__attn_pool_kernel_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- A later tile: the output's buffer at the running contents `xo`; the body's one store writes the accumulated row. -/
noncomputable def kernelRunB (c : Dev nD) (i : grid0.Coords) (arg2 : Memref sig .tc .vmem S1x512x1024 .bf16) (harg2 : arg2.IsWhole)
    (arg3 : Memref sig .tc .vmem S1x2048x1024 .bf16) (harg3 : arg3.IsWhole) (arg4 : Memref sig .tc .vmem S1x1x1024 .f32) (harg4 : arg4.IsWhole)
    (hc0 : ¬cond0 i) (x0 : Vec F S1x512x1024 .bf16) (x1 : Vec F S1x2048x1024 .bf16) (xo : Vec F S1x1x1024 .f32) :
    { L2 : List (View.Piece (Elt F) S1x1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc0__attn_pool_kernel i arg2 harg2 arg3 harg3 arg4 harg4) K } := by
  refine ⟨?_, fun E K => ?run⟩
  case run =>
    simp only [cc0__attn_pool_kernel_eq_skeleton]; unfold cc0__attn_pool_kernel_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.KernelIdealFrame.lean ====
/-
  The run of `KernelIdeal`'s region, and of `@main` around it.

  After the body at grid position `n` the output window's staging buffer holds `outsAt n`: at a batch's first tile
  (`n % 4 = 0`) what the first-tile case leaves from the two input blocks, at a later tile what the later-tile case
  leaves from the two input blocks and `outsAt (n - 1)` (the buffer is written back only after a batch's last tile, so
  between two tiles of one batch it keeps what the body left). The two input windows read ONE array: each holds it at
  half the full share, which is all a window that only fetches needs. From this proof data the body's obligation at
  every point is the case's run, and the launch gives the run of `@main`: the row array ends at the proof data's
  `arrAt`, the result is its reshape, and the argument is untouched.
-/
import proofs.«111131_j1657857376449_2_alg».proof.Proof.KernelIdealRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer -/

/-- The first-tile case's two stores each write the whole row, so its pieces cover the block. -/
theorem coverA (c : Dev nD) (i : grid0.Coords) (arg2 : Memref sig .tc .vmem S1x512x1024 .bf16) (harg2 : arg2.IsWhole)
    (arg3 : Memref sig .tc .vmem S1x2048x1024 .bf16) (harg3 : arg3.IsWhole) (arg4 : Memref sig .tc .vmem S1x1x1024 .f32) (harg4 : arg4.IsWhole)
    (hc0 : cond0 i) (x0 : Vec F S1x512x1024 .bf16) (x1 : Vec F S1x2048x1024 .bf16) (y : S1x1x1024.Idx) :
    ∃ pc ∈ (kernelRunA c i arg2 harg2 arg3 harg3 arg4 harg4 hc0 x0 x1).1, y ∈ pc.1.set :=
  View.cover_of_tiledL (kernelRunA c i arg2 harg2 arg3 harg3 arg4 harg4 hc0 x0 x1).1 S1x1x1024.size (by sl_kernel_rfl) y

/-- What the first-tile case leaves: its pieces read back. -/
def outA (c : Dev nD) (i : grid0.Coords) (arg2 : Memref sig .tc .vmem S1x512x1024 .bf16) (harg2 : arg2.IsWhole)
    (arg3 : Memref sig .tc .vmem S1x2048x1024 .bf16) (harg3 : arg3.IsWhole) (arg4 : Memref sig .tc .vmem S1x1x1024 .f32) (harg4 : arg4.IsWhole)
    (hc0 : cond0 i) (x0 : Vec F S1x512x1024 .bf16) (x1 : Vec F S1x2048x1024 .bf16) : Vec F S1x1x1024 .f32 :=
  VO2.read (Elt F) (VO2.writes (Elt F) VO2.junk (kernelRunA c i arg2 harg2 arg3 harg3 arg4 harg4 hc0 x0 x1).1)

/-- The later-tile case's one store writes the whole row. -/
theorem coverB (c : Dev nD) (i : grid0.Coords) (arg2 : Memref sig .tc .vmem S1x512x1024 .bf16) (harg2 : arg2.IsWhole)
    (arg3 : Memref sig .tc .vmem S1x2048x1024 .bf16) (harg3 : arg3.IsWhole) (arg4 : Memref sig .tc .vmem S1x1x1024 .f32) (harg4 : arg4.IsWhole)
    (hc0 : ¬cond0 i) (x0 : Vec F S1x512x1024 .bf16) (x1 : Vec F S1x2048x1024 .bf16) (xo : Vec F S1x1x1024 .f32) (y : S1x1x1024.Idx) :
    ∃ pc ∈ (kernelRunB c i arg2 harg2 arg3 harg3 arg4 harg4 hc0 x0 x1 xo).1, y ∈ pc.1.set :=
  View.cover_of_tiledL (kernelRunB c i arg2 harg2 arg3 harg3 arg4 harg4 hc0 x0 x1 xo).1 S1x1x1024.size (by sl_kernel_rfl) y

/-- What the later-tile case leaves. -/
def outB (c : Dev nD) (i : grid0.Coords) (arg2 : Memref sig .tc .vmem S1x512x1024 .bf16) (harg2 : arg2.IsWhole)
    (arg3 : Memref sig .tc .vmem S1x2048x1024 .bf16) (harg3 : arg3.IsWhole) (arg4 : Memref sig .tc .vmem S1x1x1024 .f32) (harg4 : arg4.IsWhole)
    (hc0 : ¬cond0 i) (x0 : Vec F S1x512x1024 .bf16) (x1 : Vec F S1x2048x1024 .bf16) (xo : Vec F S1x1x1024 .f32) : Vec F S1x1x1024 .f32 :=
  VO2.read (Elt F) (VO2.writes (Elt F) VO2.junk (kernelRunB c i arg2 harg2 arg3 harg3 arg4 harg4 hc0 x0 x1 xo).1)

/-! ## The accumulation, point by point -/

/-- What the output's staging buffer holds after the body at position `n`. -/
def outsAt (c : Dev nD) : (n : ℕ) → n < cfg0.N → Vec F S1x1x1024 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩)
      ((hcond0 ⟨0, hn⟩).mpr (Nat.zero_mod _)) (iblk m c 0 ⟨0, hn⟩) (iblk m c 1 ⟨0, hn⟩)
  | n + 1, hn =>
    if h0 : (n + 1) % 4 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        ((hcond0 ⟨n + 1, hn⟩).mpr h0) (iblk m c 0 ⟨n + 1, hn⟩) (iblk m c 1 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩)
        (fun h => h0 ((hcond0 ⟨n + 1, hn⟩).mp h)) (iblk m c 0 ⟨n + 1, hn⟩) (iblk m c 1 ⟨n + 1, hn⟩) (outsAt c n (Nat.lt_of_succ_lt hn))

/-- `outsAt` at a first tile. -/
theorem outsAt_A (c : Dev nD) (t : Fin cfg0.N) (h0 : t.val % 4 = 0) :
    outsAt m c t.val t.isLt = outA c (grid0.coords t) (ms0 t) (hs0 t) (ms1 t) (hs1 t) (ms2 t) (hs2 t) ((hcond0 t).mpr h0) (iblk m c 0 t) (iblk m c 1 t) := by
  obtain ⟨n, hn⟩ := t
  cases n with
  | zero => exact rfl
  | succ n => exact (dif_pos h0).trans rfl

/-- `outsAt` at a later tile: over what the point before left. -/
theorem outsAt_B (c : Dev nD) (t : Fin cfg0.N) (h0 : ¬t.val % 4 = 0) :
    outsAt m c t.val t.isLt = outB c (grid0.coords t) (ms0 t) (hs0 t) (ms1 t) (hs1 t) (ms2 t) (hs2 t) (fun h => h0 ((hcond0 t).mp h)) (iblk m c 0 t) (iblk m c 1 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The pipeline's proof data on core `c`: the arrays as the region finds them; after the body each input's buffer
    at its block and the output's at `outsAt`; the invariant the scoped buffers no window stages (there are none);
    nothing owed; the two windows on the shared array at its two halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt)
  Φ _ := Pipeline.scopedRest spec0 c
  q w := match w with
    | ⟨0, _⟩ => fullShare.left
    | ⟨1, _⟩ => fullShare.right
    | ⟨_ + 2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-- At a later tile the output's buffer holds what the body left at the point before: it was not written back
    between (a row is written back after its batch's last tile only). -/
theorem before2_B (c : Dev nD) (t : Fin cfg0.N) (h0 : ¬t.val % 4 = 0) (d) :
    (dats m 0 c).before 2 t d = (outsAt m c (t.val - 1) (Nat.lt_of_le_of_lt (Nat.sub_le _ _) t.isLt)) := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

set_option maxHeartbeats 800000 in
/-- The body at any point: the inputs' buffers hold their blocks; the position says which case the point is in; at a
    later tile the output's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  have hN : t.val < 32 := lt_of_lt_of_eq t.isLt (show cfg0.N = 32 from N_0)
  by_cases h0 : t.val % 4 = 0
  · rw [outsAt_A m c t h0]
    unfold outA
    iintro ⟨HΦ, Ho, ⟨%d0, H0⟩, ⟨%d1, H1⟩, ⟨%d2, H2⟩⟩
    iapply ((kernelRunA c (grid0.coords t) _ _ _ _ _ _ ((hcond0 t).mpr h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverA c _ _ _ _ _ _ _ _ _ _)
  · rw [outsAt_B m c t h0]
    simp only [before2_B m c t h0]
    unfold outB
    iintro ⟨HΦ, Ho, ⟨%d0, H0⟩, ⟨%d1, H1⟩, ⟨%d2, H2⟩⟩
    iapply ((kernelRunB c (grid0.coords t) _ _ _ _ _ _ (fun h => h0 ((hcond0 t).mp h)) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverB c _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealLaunch.lean ====
/-
  The launch of `KernelIdeal`'s region and the run of `@main`.

  The two input windows are blocks of ONE array. The launch hands the pipeline that array whole; it is dealt to the
  two windows as its two half shares (a window that is only fetched needs no more), the output window's array whole.
  After the region the row array is reshaped into the result; the argument array is touched by nothing. So every
  execution of `@main` ends with the result at the reshape of the row array's final contents `arrAt 2 N`, and the
  argument as it was.
-/
import proofs.«111131_j1657857376449_2_alg».proof.Proof.KernelIdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays behind the windows: the converted argument (two windows) and the row array. -/
theorem arrRefs_eq : (Finset.univ.image (Pipeline.arrRef spec0) : Finset (Ref sig .tc)) = {main_v0, main_v1} := by decide

/-- The windows' arrays are whole buffers: the proof data's arrays as plain points-tos, each at its share. -/
theorem arrays_pts (c : Dev nD) (Fw : (w : Fin cfg0.W) → Buf (Elt F) ((cfg0.win w).arr.view.loc (c.tc : Thread nD τ))) :
    (dats m 0 c).arrays Fw = bigSep Finset.univ fun w => (((c.tc : Thread nD τ).loc (Pipeline.arrRef spec0 w)) ↦{(dats m 0 c).share w} Fw w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The shared array's full share dealt to its two windows, the row array whole to the third. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_pts]
  unfold Pipeline.arrBufs
  rw [arrRefs_eq, bigSep_insert (by decide), BI.bigSep_singleton, bigSep_W0, share0, share1, share2]
  refine (show (iprop(((c.tc : Thread nD τ).loc main_v0 ↦{fullShare} V m c main_v0) ∗ ((c.tc : Thread nD τ).loc main_v1 ↦{fullShare} V m c main_v1)) : sProp 𝕄) ⊢ _ from ?_)
  iintro ⟨H0, H1⟩
  ihave H := (pointsTo_share (PosShare.mem_left_op_right fullShare)).1 $$ H0
  icases H with ⟨Hl, Hr⟩
  isplitl [Hl]; · iexact Hl
  isplitl [Hr]; · iexact Hr
  iexact H1

/-! ## The line after the region -/

/-- The row array's final contents reshaped `[8, 1, 1024] → [8, 1024]`: what the line after the region writes into the
    result. -/
def tailVal (c : Dev nD) : Buf (Elt F) ((c.tc : Thread nD τ).loc main_v2) :=
  shapeCast S8x1024 ((dats m 0 c).arrAt 2 cfg0.N) shapeCasts_S8x1x1024_S8x1024

/-- The buffers that bypass the region, as it is entered: the argument and the (still unwritten) result; -/
def Zin (c : Dev nD) : sProp 𝕄 :=
  iprop((((c.tc : Thread nD τ).loc main_arg0) ↦{fullShare} V m c main_arg0) ∗ (((c.tc : Thread nD τ).loc main_v2) ↦{fullShare} V m c main_v2))
/-- and after the line that follows the region. -/
def Zfin (c : Dev nD) : sProp 𝕄 :=
  iprop((((c.tc : Thread nD τ).loc main_arg0) ↦{fullShare} V m c main_arg0) ∗ (((c.tc : Thread nD τ).loc main_v2) ↦{fullShare} tailVal m c))

/-- The two buffers the reshape touches. -/
abbrev tailSet : Finset (DevRef τ sig) := {Proc.devRef .tc main_v1, Proc.devRef .tc main_v2}

/-- The contents the reshape runs from: the row array at its final contents, everything else as the region found it. -/
def tailW (c : Dev nD) : Valuation τ sig (Elt F) :=
  Function.update (V0 m c) (Proc.devRef .tc main_v1) ((dats m 0 c).arrAt 2 cfg0.N)

theorem tailW_v1 (c : Dev nD) : tailW m c (Proc.devRef .tc main_v1) = (dats m 0 c).arrAt 2 cfg0.N := by
  unfold tailW; exact Function.update_self ..
theorem tailW_v2 (c : Dev nD) : tailW m c (Proc.devRef .tc main_v2) = V m c main_v2 := by
  unfold tailW; exact Function.update_of_ne (by decide) ..

theorem tail_after_v1 (c : Dev nD) :
    StableHlo.after (List.flatten [hostOps1]) (tailW m c) (Proc.devRef .tc main_v1) = (dats m 0 c).arrAt 2 cfg0.N := by
  show StableHlo.after hostOps1 (tailW m c) (Proc.devRef .tc main_v1) = _
  after_results
  exact tailW_v1 m c

theorem tail_after_v2 (c : Dev nD) :
    StableHlo.after (List.flatten [hostOps1]) (tailW m c) (Proc.devRef .tc main_v2) = tailVal m c := by
  show StableHlo.after hostOps1 (tailW m c) (Proc.devRef .tc main_v2) = _
  after_results
  rw [tailW_v1]
  rfl

theorem held_tail (c : Dev nD) (W : Valuation τ sig (Elt F)) :
    (StableHlo.held (c.tc : Thread nD τ) tailSet W : sProp 𝕄)
      = iprop((((c.tc : Thread nD τ).loc main_v1) ↦{fullShare} W (Proc.devRef .tc main_v1)) ∗ (((c.tc : Thread nD τ).loc main_v2) ↦{fullShare} W (Proc.devRef .tc main_v2))) := by
  unfold StableHlo.held tailSet; rw [bigSep_insert (by decide), BI.bigSep_singleton]; rfl

/-- The line after the region: from the region's exit — the arrays at their final contents, the bypassing buffers as
    the region found them — the reshape runs and leaves the result at the row array's final contents reshaped. -/
theorem htail (c : Dev nD) (Q' : PUnit → sProp 𝕄) :
    iprop((iprop((dats m 0 c).arrays ((dats m 0 c).arrAt · cfg0.N) ∗ Zfin m c) -∗ Q' ⟨⟩)
        ∗ boundary (c.tc : Thread nD τ) ∗ (dats m 0 c).arrays ((dats m 0 c).arrAt · cfg0.N) ∗ Zin m c)
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays_pts, bigSep_W0, share0, share1, share2]
  unfold Zin Zfin
  iintro ⟨Hk, Hb, ⟨Ha0, Ha1, Ha2⟩, ⟨Hz0, Hz2⟩⟩
  ihave Hh : (StableHlo.held (c.tc : Thread nD τ) tailSet (tailW m c) : sProp 𝕄) $$ [Ha2 Hz2]
  · rw [held_tail, tailW_v1, tailW_v2]
    isplitl [Ha2]; · iexact Ha2
    iexact Hz2
  iapply (Pipeline.wp_seqs_then (fun q => (cfgs q).toPCfg (Val := Elt F)) defs₀ Variants.none c tailSet [] [hostOps1]
    (by intro ops hops op hop
        simp only [List.mem_cons, List.mem_nil_iff, or_false] at hops
        subst hops
        simp only [hostOps1, List.mem_cons, List.mem_nil_iff, or_false] at hop
        subst hop
        exact Finset.Subset.refl _)
    (by intro ops hops op hop
        simp only [List.mem_cons, List.mem_nil_iff, or_false] at hops
        subst hops
        exact (List.forall_iff_forall_mem.mp hostOps1_fresh) op hop)
    (tailW m c)) $$ [Hb Hh]
  · isplitl [Hb]; · iexact Hb
    iexact Hh
  iintro Hb
  rw [Pipeline.chain_nil, wp_pure, held_tail, tail_after_v1, tail_after_v2]
  imodintro
  iapply Hk
  icases Hb with ⟨-, ⟨Ha2, Hz2⟩⟩
  isplitl [Ha0 Ha1 Ha2]
  · isplitl [Ha0]; · iexact Ha0
    isplitl [Ha1]; · iexact Ha1
    iexact Ha2
  isplitl [Hz0]; · iexact Hz0
  iexact Hz2

/-! ## The run -/

set_option backward.isDefEq.respectTransparency.types false in
/-- Every weakly fair execution of `@main` terminates, faulting nowhere, with the result at the reshape of the row
    array's final contents and the argument as it was. -/
theorem run_main : θ_run defs (onTc (τ := τ) (main (F := F))) ⟨m, fun _ => 0, ρ⟩ (fun r => ∀ c : Dev nD,
      r.2.mem ((c.tc : Thread nD τ).loc main_v2) = tailVal m c
      ∧ r.2.mem ((c.tc : Thread nD τ).loc main_arg0) = m ((c.tc : Thread nD τ).loc main_arg0)) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells (Pipeline.pin (fun q => (cfgs q).toPCfg (Val := Elt F)) (fun q => (cfgs q).toPCfg_adm)) cellOf_inj)
      (Pipeline.launchToks (Pipeline.pin (fun q => (cfgs q).toPCfg (Val := Elt F)) (fun q => (cfgs q).toPCfg_adm)) cellOf_inj))
    (hu₀ := .rfl)
    (V := V m) (hmain := hmain m Variants.none) (hsplit := hsplit m) (hpf := fun _ k => k.elim0)
    (X := fun _ => iprop(emp)) (Y := fun _ => iprop(emp)) (Z := Zin m) (Z' := Zfin m)
    (hX := fun c => by
      rw [Pipeline.unscopedRestP_none, unscopedRest0_eq]
      unfold Zin
      iintro H
      isplitr; · iempintro
      iexact H)
    (hin := fun c => by
      show _ ⊢ (Pipeline.scopedRest (Ix := Unit) (Name := ℕ) (U := UR sig nD τ) (Lvl := ℕ) (Val := Elt F) spec0 c : sProp 𝕄)
      iintro ⟨-, -, H⟩
      iexact H)
    (hout := fun c => by
      show (Pipeline.scopedRest (Ix := Unit) (Name := ℕ) (U := UR sig nD τ) (Lvl := ℕ) (Val := Elt F) spec0 c : sProp 𝕄) ⊢ _
      iintro H
      isplitr; · iempintro
      iexact H)
    (htail := htail m)
    (QY := fun c s => s.mem ((c.tc : Thread nD τ).loc main_arg0) = m ((c.tc : Thread nD τ).loc main_arg0)
      ∧ s.mem ((c.tc : Thread nD τ).loc main_v2) = tailVal m c)
    (hY := fun c s' => by
      unfold Zfin
      iintro ⟨-, ⟨Ha, Hv⟩, HSI⟩
      icombine HSI Ha gives %ha
      icombine HSI Hv gives %hv
      imodintro
      isplitr
      · ipureintro
        exact ⟨Buf.eq_of_forall_mem_univ ha, Buf.eq_of_forall_mem_univ hv⟩
      · iexact HSI)
    (hQ := fun s h c => ⟨(h c).2.2.2, (h c).2.2.1⟩)

end Cert.KernelIdeal.Hand

end
-- ==== Proof.Spec.lean ====
/-
  The two programs' results as functions of the argument array, index by index, on the extended reals.

  The argument is `x : [8, 2048, 1024]`. For a batch `b` and a query row `q`:
  `score q k = ∑ d, x[b,q,d] · x[b,k,d]`, `rowMax q` the maximum of the row's scores (a fold of `max` from `-∞`),
  `ex q k = exp (score q k − rowMax q)` and `den q = ∑ k, ex q k`.
  The reference normalises each weight, contracts with the values, sums over the rows and divides by the row count:
  `refOut b d = (∑ q, ∑ k, (ex q k / den q) · x[b,k,d]) / 2048`.
  The kernel contracts the unnormalised weights, multiplies each row by `1 / den q`, sums a tile of 512 rows, scales
  by `2⁻¹¹` and adds the four tiles of a batch onto a cleared accumulator in turn (`kerOut`).
-/
import Idealize.ShloMosaic.PureOps.Ideal
import Idealize.ShloMosaic.Lib.ValueIdx

noncomputable section

namespace Cert.Spec

open Idealize.ShloMosaic Idealize.ShloMosaic.ValueIdx

/-- The argument array, at the ideal values. -/
abbrev Arg : Type := (⟨3, ![8, 2048, 1024]⟩ : Shape).Idx → EReal

/-- The words the two programs spell: `-∞`, `0`, `1`, `2⁻¹¹`, `2048`. -/
abbrev wNegInf : EReal := Ideal.ofBits .f32 0xFF800000#32
abbrev wZero : EReal := Ideal.ofBits .f32 0x00000000#32
abbrev wOne : EReal := Ideal.ofBits .f32 0x3F800000#32
abbrev wInvN : EReal := Ideal.ofBits .f32 0x3A000000#32
abbrev wN : EReal := Ideal.ofBits .f32 0x45000000#32

/-- Row `r` of tile `j`: row `512 j + r` of the batch (for `j < 4`; taken modulo the row count so that it is a row
    for every natural `j`). -/
def row (j : Nat) (r : Fin 512) : Fin 2048 := ⟨(512 * j + r.val) % 2048, Nat.mod_lt _ (by decide)⟩

def score (x : Arg) (b : Fin 8) (q k : Fin 2048) : EReal := ∑ d : Fin 1024, x (ix3 b q d) * x (ix3 b k d)

def rowMax (x : Arg) (b : Fin 8) (q : Fin 2048) : EReal :=
  (Finset.univ : Finset (Fin 2048)).fold max wNegInf (fun k => score x b q k)

def ex (x : Arg) (b : Fin 8) (q k : Fin 2048) : EReal := Ideal.exp (score x b q k - rowMax x b q)

def den (x : Arg) (b : Fin 8) (q : Fin 2048) : EReal := ∑ k : Fin 2048, ex x b q k

/-- The reference's result at `(b, d)`. -/
def refOut (x : Arg) (b : Fin 8) (d : Fin 1024) : EReal :=
  Ideal.div (∑ q : Fin 2048, ∑ k : Fin 2048, Ideal.div (ex x b q k) (den x b q) * x (ix3 b k d)) wN

/-- One tile's contribution to the kernel's accumulator at `(b, d)`, before the scaling. -/
def tilePart (x : Arg) (b : Fin 8) (j : Nat) (d : Fin 1024) : EReal :=
  ∑ r : Fin 512, (∑ k : Fin 2048, ex x b (row j r) k * x (ix3 b k d)) * Ideal.div wOne (den x b (row j r))

/-- The kernel's accumulator at `(b, d)` after the tiles `0 … j` of the batch. -/
def accUpTo (x : Arg) (b : Fin 8) (d : Fin 1024) : Nat → EReal
  | 0 => wZero + tilePart x b 0 d * wInvN
  | n + 1 => accUpTo x b d n + tilePart x b (n + 1) d * wInvN

/-! ### The same, over one grid point's blocks -/

/-- A tile of 512 query rows and a batch's 2048 key rows, as the kernel's body is handed them. -/
abbrev Tile : Type := (⟨3, ![1, 512, 1024]⟩ : Shape).Idx → EReal
abbrev Keys : Type := (⟨3, ![1, 2048, 1024]⟩ : Shape).Idx → EReal

def scoreB (x0 : Tile) (x1 : Keys) (r : Fin 512) (k : Fin 2048) : EReal := ∑ d : Fin 1024, x0 (ix3 0 r d) * x1 (ix3 0 k d)

def rowMaxB (x0 : Tile) (x1 : Keys) (r : Fin 512) : EReal :=
  (Finset.univ : Finset (Fin 2048)).fold max wNegInf (fun k => scoreB x0 x1 r k)

def exB (x0 : Tile) (x1 : Keys) (r : Fin 512) (k : Fin 2048) : EReal := Ideal.exp (scoreB x0 x1 r k - rowMaxB x0 x1 r)

def denB (x0 : Tile) (x1 : Keys) (r : Fin 512) : EReal := ∑ k : Fin 2048, exB x0 x1 r k

/-- What one grid point adds to the accumulator at lane `d`, before the scaling. -/
def tileB (x0 : Tile) (x1 : Keys) (d : Fin 1024) : EReal :=
  ∑ r : Fin 512, (∑ k : Fin 2048, exB x0 x1 r k * x1 (ix3 0 k d)) * Ideal.div wOne (denB x0 x1 r)

/-- The kernel's result at `(b, d)`. -/
def kerOut (x : Arg) (b : Fin 8) (d : Fin 1024) : EReal := accUpTo x b d 3

end Cert.Spec

end
-- ==== Proof.LibDense.lean ====
/-
  General lemmas about plain matrix products at the ideal (extended-real) instance.

  A product of an `M × K` matrix with a `K × N` matrix whose dimension numbers contract the left operand's
  second axis with the right operand's first, read at the entry `(p, q)`, is the finite sum
  `∑ k, a (p, k) * b (k, q)` over `k : Fin K`: the contraction index of the dimension numbers has one axis of
  extent `K`, and the operands' indices at contraction position `k` are `(p, k)` and `(k, q)`.
-/
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- The left operand's index of the plain product at output `(p, q)` and contraction position `k` is `(p, k)`. -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index of the plain product at output `(p, q)` and contraction position `k` is `(k, q)`. -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- The contraction sum of the plain product at `(p, q)`, re-indexed over `Fin K`. -/
theorem plain_sum {M K N : Nat} (a : (⟨2, ![M, K]⟩ : Shape).Idx → EReal) (b : (⟨2, ![K, N]⟩ : Shape).Idx → EReal)
    (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matrix-unit product into the zero accumulator, with plain dimension numbers, read at `(p, q)`. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    matmul D prec a b (constant (F := Ideal) ⟨2, ![M, N]⟩ .f32 0x00000000#32) (ix2 p q) = ∑ k : Fin K, a (ix2 p k) * b (ix2 k q) := by
  subst hD
  simp only [matmul]
  rw [Ideal.matmul_constant_zero_apply]
  exact plain_sum a b p q

/-- The host's `dot_general` with plain dimension numbers, read at `(p, q)`. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    Host.dotGeneral D prec a b (ix2 p q) = ∑ k : Fin K, a (ix2 p k) * b (ix2 k q) := by
  subst hD
  simp only [Host.dotGeneral]
  rw [Ideal.dotGeneral_apply]
  exact plain_sum a b p q

/-- A row vector broadcast down the rows of a matrix, read at `(p, q)`, is the vector at `q`. -/
theorem broadcastTo_row_apply {α : Type} {M N : Nat} (v : (⟨2, ![1, N]⟩ : Shape).Idx → α)
    (h : (⟨2, ![1, N]⟩ : Shape).Broadcasts ⟨2, ![M, N]⟩) (p : Fin M) (q : Fin N) :
    broadcastTo ⟨2, ![M, N]⟩ v h (ix2 p q) = v (ix2 0 q) := by
  refine broadcastTo_apply v h (ix2 p q) (ix2 0 q) fun a => ?_
  match a with
  | ⟨0, _⟩ => exact (if_pos rfl).symm
  | ⟨1, _⟩ =>
    show q.val = if N = 1 then 0 else q.val
    split
    · have := q.isLt; omega
    · rfl

/-- A vector of length `M` recast as an `M × 1` column, read at `(p, z)`, is the vector at `p`. -/
theorem shapeCast_col_apply {α : Type} {M : Nat} (v : (⟨1, ![M]⟩ : Shape).Idx → α)
    (h : (⟨1, ![M]⟩ : Shape).ShapeCasts ⟨2, ![M, 1]⟩) (p : Fin M) (z : Fin 1) :
    shapeCast ⟨2, ![M, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- The index a sum over the second axis of a matrix visits at row `p` and position `k` is `(p, k)`. -/
theorem reduce_lift {M N : Nat} (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A sum over the second axis of a matrix, read at row `p`. -/
theorem rowSum_apply {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (reduce_lift h p k)

/-- The same for an `f32` sum started from the zero word, with the side conditions spelt as a printed program spells them. -/
theorem rowSum_f32_apply {M N : Nat} (src : FVec Ideal ⟨2, ![M, N]⟩ .f32)
    (h : (⟨2, ![M, N]⟩ : Shape).Reduces [1] ⟨1, ![M]⟩) (hφ : FKind.Formats .f32)
    (hacc : (0x00000000#32 : BitVec 32) = 0x00000000#32) (p : Fin M) :
    multiReduction .add [1] ⟨1, ![M]⟩ src 0x00000000#32 h hφ hacc (ix1 p) = ∑ k : Fin N, src (ix2 p k) :=
  (Ideal.multiReduction_add_single src 0x00000000#32 h hφ hacc (ix1 p)).trans
    (Finset.sum_congr rfl fun k _ => congrArg src (reduce_lift h p k))

/-- A vector of length `N` recast as a `1 × N` row, read at `(z, o)`, is the vector at `o`. -/
theorem shapeCast_row_apply {α : Type} {N : Nat} (v : (⟨1, ![N]⟩ : Shape).Idx → α)
    (h : (⟨1, ![N]⟩ : Shape).ShapeCasts ⟨2, ![1, N]⟩) (z : Fin 1) (o : Fin N) :
    shapeCast ⟨2, ![1, N]⟩ v h (ix2 z o) = v (ix1 o) := by
  refine shapeCast_apply v h (ix2 z o) (ix1 o) ?_
  rw [Shape.rowMajor_val_one, Shape.rowMajor_val_two]
  show o.val = z.val * N + o.val
  have := z.isLt
  have hz : z.val = 0 := by omega
  rw [hz, Nat.zero_mul, Nat.zero_add]

/-- A `1 × N` row recast as a vector of length `N`, read at `o`, is the row at `(0, o)`. -/
theorem shapeCast_unrow_apply {α : Type} {N : Nat} (v : (⟨2, ![1, N]⟩ : Shape).Idx → α)
    (h : (⟨2, ![1, N]⟩ : Shape).ShapeCasts ⟨1, ![N]⟩) (o : Fin N) :
    shapeCast ⟨1, ![N]⟩ v h (ix1 o) = v (ix2 0 o) := by
  refine shapeCast_apply v h (ix1 o) (ix2 0 o) ?_
  rw [Shape.rowMajor_val_one, Shape.rowMajor_val_two]
  show 0 * N + o.val = o.val
  rw [Nat.zero_mul, Nat.zero_add]

/-- The transpose of an `O × K` matrix, read at `(k, o)`, is the matrix at `(o, k)`. -/
theorem transpose2_apply {α : Type} {O K : Nat} (w : (⟨2, ![O, K]⟩ : Shape).Idx → α)
    (h : (⟨2, ![O, K]⟩ : Shape).Transposes [1, 0] ⟨2, ![K, O]⟩) (k : Fin K) (o : Fin O) :
    transpose ⟨2, ![K, O]⟩ [1, 0] w h (ix2 k o) = w (ix2 o k) :=
  transpose_apply [1, 0] w h (ix2 k o) (ix2 o k) fun b => by
    match b with
    | ⟨0, _⟩ => rfl
    | ⟨1, _⟩ => rfl

end Cert.LibDense

end
-- ==== Proof.KernelIdealPayload.lean ====
/-
  The kernel body's arithmetic read at an entry, on the extended reals.

  The body's one accumulating store writes, at lane `d` of the row, the row's previous contents plus `2⁻¹¹` times the
  tile's contribution: with `x0` the tile of 512 query rows and `x1` the batch's 2048 key rows,
  `score r k = ∑ e, x0[r,e] · x1[k,e]`, `ex r k = exp (score r k − max_k score r k)`, `den r = ∑ k, ex r k`, the
  contribution is `∑ r, (∑ k, ex r k · x1[k,d]) · (1 / den r)`. Each layout operation of the body (dropping or adding a
  unit axis, a transpose, a column broadcast across the columns) is read at an entry, each reduction as its sum or its
  fold of `max`, each matrix product as its contraction sum.
-/
import proofs.«111131_j1657857376449_2_alg».proof.Proof.Gen.KernelIdeal.Skeleton
import proofs.«111131_j1657857376449_2_alg».proof.Proof.Spec
import proofs.«111131_j1657857376449_2_alg».proof.Proof.LibDense
import Idealize.ShloMosaic.PureOps.Ideal.Laws
import Idealize.ShloMosaic.Lib.ValueIdx
import Idealize.ShloMosaic.Lib.Pipeline.Value

noncomputable section

namespace Cert.KernelIdeal.Val

open Cert.KernelIdeal Cert.KernelIdeal.Gen
open Idealize.ShloMosaic Idealize.ShloMosaic.ValueIdx

/-! ## Layout operations and reductions read at an entry -/

/-- An array `[1, A, B]` with its unit axis dropped, read at `(p, q)`, is the array at `(0, p, q)`. -/
theorem dropUnit3_apply {α : Type} {A B : Nat} (v : (⟨3, ![1, A, B]⟩ : Shape).Idx → α)
    (h : (⟨3, ![1, A, B]⟩ : Shape).ShapeCasts ⟨2, ![A, B]⟩) (p : Fin A) (q : Fin B) :
    shapeCast ⟨2, ![A, B]⟩ v h (ix2 p q) = v (ix3 0 p q) :=
  (shapeCast_dropUnit_apply ![A, B] v h (ix2 p q)).trans
    (congrArg v (funext fun a => by match a with | ⟨0, _⟩ => rfl | ⟨1, _⟩ => rfl | ⟨2, _⟩ => rfl))

/-- An array `[A, B]` given a leading unit axis, read at `(0, p, q)`, is the array at `(p, q)`. -/
theorem addUnit3_apply {α : Type} {A B : Nat} (v : (⟨2, ![A, B]⟩ : Shape).Idx → α)
    (h : (⟨2, ![A, B]⟩ : Shape).ShapeCasts ⟨3, ![1, A, B]⟩) (p : Fin A) (q : Fin B) :
    shapeCast ⟨3, ![1, A, B]⟩ v h (ix3 0 p q) = v (ix2 p q) :=
  (shapeCast_addUnit_apply ![A, B] v h (ix3 0 p q)).trans
    (congrArg v (funext fun a => by match a with | ⟨0, _⟩ => rfl | ⟨1, _⟩ => rfl))

/-- A column `[M, 1]` broadcast across `N` columns, read at `(p, q)`, is the column at `(p, 0)`. -/
theorem broadcastTo_col_apply {α : Type} {M N : Nat} (w : (⟨2, ![M, 1]⟩ : Shape).Idx → α)
    (h : (⟨2, ![M, 1]⟩ : Shape).Broadcasts ⟨2, ![M, N]⟩) (p : Fin M) (q : Fin N) :
    broadcastTo ⟨2, ![M, N]⟩ w h (ix2 p q) = w (ix2 p 0) := by
  refine broadcastTo_apply w h (ix2 p q) (ix2 p 0) fun a => ?_
  match a with
  | ⟨0, _⟩ =>
    show p.val = if M = 1 then 0 else p.val
    split
    · have := p.isLt; omega
    · rfl
  | ⟨1, _⟩ => exact (if_pos rfl).symm

/-- The index a reduction over the first axis of a matrix visits at column `q` and position `p` is `(p, q)`. -/
theorem reduce0_lift {M N : Nat} (h : (⟨2, ![M, N]⟩ : Shape).Reduces [0] ⟨1, ![N]⟩) (q : Fin N) (p : Fin M) :
    h.lift (ix1 q) p = ix2 p q := by
  funext a
  apply Fin.ext
  match a with
  | ⟨0, _⟩ => rfl
  | ⟨1, _⟩ => rfl

/-- A sum over the first axis of a matrix, read at column `q`. -/
theorem colSum_apply {M N : Nat} {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.add.neutral φ hφ) (q : Fin N) :
    multiReduction .add [0] ⟨1, ![N]⟩ src acc h hφ hacc (ix1 q) = ∑ p : Fin M, src (ix2 p q) :=
  (Ideal.multiReduction_add_single src acc h hφ hacc (ix1 q)).trans
    (Finset.sum_congr rfl fun p _ => congrArg src (reduce0_lift h q p))

/-- A maximum over the second axis of a matrix, read at row `p`: the fold of `max` from the starting word. -/
theorem rowMax_apply {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (Ideal.ofBits φ acc) (fun k => src (ix2 p k)) := by
  rw [Ideal.multiReduction_maximumf_single]
  exact congrArg (fun f => (Finset.univ : Finset (Fin N)).fold max (Ideal.ofBits φ acc) f)
    (funext fun k => congrArg src (Cert.LibDense.reduce_lift h p k))

/-! ## The body's intermediate vectors -/

section Stages

variable (x0 : Vec Ideal S1x512x1024 .bf16) (x1 : Vec Ideal S1x2048x1024 .bf16)

/-- The tile's rows, the batch's rows, the scores `q · kᵀ`. -/
abbrev qV : FVec Ideal S512x1024 .bf16 := shapeCast S512x1024 x0 shapeCasts_S1x512x1024_S512x1024
abbrev kV : FVec Ideal S2048x1024 .bf16 := shapeCast S2048x1024 x1 shapeCasts_S1x2048x1024_S2048x1024
abbrev scoresV : FVec Ideal S512x2048 .f32 :=
  matmul dot_S512x1024_S1024x2048_S512x2048_1_0_0_1_n_n none (qV x0)
    (transpose S1024x2048 [1, 0] (kV x1) transposes_S2048x1024_p1_0_S1024x2048) (constant S512x2048 .f32 0x00000000#32)
/-- Each row's maximum, the unnormalised weights, each row's sum of weights. -/
abbrev maxV : FVec Ideal S512 .f32 :=
  multiReduction .maximumf [1] S512 (scoresV x0 x1) 0xFF800000#32 reduces_S512x2048_S512 (.inl rfl) rfl
abbrev exV : FVec Ideal S512x2048 .f32 :=
  exp (subf (scoresV x0 x1) (broadcastTo S512x2048 (shapeCast S512x1 (maxV x0 x1) shapeCasts_S512_S512x1) broadcasts_S512x1_S512x2048))
abbrev denV : FVec Ideal S512 .f32 :=
  multiReduction .add [1] S512 (exV x0 x1) 0x00000000#32 reduces_S512x2048_S512 (.inl rfl) rfl
/-- The weights contracted with the values, and that scaled row by row by the reciprocal of the row's sum. -/
abbrev ctxUnV : FVec Ideal S512x1024 .f32 :=
  matmul dot_S512x2048_S2048x1024_S512x1024_1_0_0_1_n_n none (truncf .bf16 (exV x0 x1) bitsLt_bf16_f32) (kV x1) (constant S512x1024 .f32 0x00000000#32)
abbrev ctxV : FVec Ideal S512x1024 .f32 :=
  mulf (ctxUnV x0 x1) (broadcastTo S512x1024
    (divf (broadcast S512x1 (Scalar.ofBits .f32 0x3F800000#32)) (shapeCast S512x1 (denV x0 x1) shapeCasts_S512_S512x1)) broadcasts_S512x1_S512x1024)

theorem scoresV_apply (r : Fin 512) (k : Fin 2048) : scoresV x0 x1 (ix2 r k) = Cert.Spec.scoreB x0 x1 r k := by
  unfold scoresV Cert.Spec.scoreB
  refine (Cert.LibDense.matmul_plain_apply dot_S512x1024_S1024x2048_S512x2048_1_0_0_1_n_n rfl none _ _ r k).trans ?_
  refine Finset.sum_congr rfl fun e _ => ?_
  refine congrArg₂ (· * ·) (dropUnit3_apply _ _ r e) ?_
  exact (Cert.LibDense.transpose2_apply _ _ e k).trans (dropUnit3_apply _ _ k e)

theorem maxV_apply (r : Fin 512) : maxV x0 x1 (ix1 r) = Cert.Spec.rowMaxB x0 x1 r := by
  unfold maxV Cert.Spec.rowMaxB
  refine (rowMax_apply (scoresV x0 x1) _ reduces_S512x2048_S512 _ _ r).trans ?_
  exact congrArg (fun f => (Finset.univ : Finset (Fin 2048)).fold max Cert.Spec.wNegInf f) (funext fun k => scoresV_apply x0 x1 r k)

theorem exV_apply (r : Fin 512) (k : Fin 2048) : exV x0 x1 (ix2 r k) = Cert.Spec.exB x0 x1 r k := by
  unfold exV Cert.Spec.exB
  show Ideal.exp (scoresV x0 x1 (ix2 r k) - broadcastTo S512x2048 (shapeCast S512x1 (maxV x0 x1) shapeCasts_S512_S512x1) broadcasts_S512x1_S512x2048 (ix2 r k))
    = Ideal.exp (Cert.Spec.scoreB x0 x1 r k - Cert.Spec.rowMaxB x0 x1 r)
  refine congrArg₂ (fun a b => Ideal.exp (a - b)) (scoresV_apply x0 x1 r k) ?_
  exact ((broadcastTo_col_apply _ _ r k).trans (Cert.LibDense.shapeCast_col_apply _ _ r 0)).trans (maxV_apply x0 x1 r)

theorem denV_apply (r : Fin 512) : denV x0 x1 (ix1 r) = Cert.Spec.denB x0 x1 r := by
  unfold denV Cert.Spec.denB
  refine (Cert.LibDense.rowSum_apply (exV x0 x1) _ reduces_S512x2048_S512 _ _ r).trans ?_
  exact Finset.sum_congr rfl fun k _ => exV_apply x0 x1 r k

theorem ctxUnV_apply (r : Fin 512) (d : Fin 1024) :
    ctxUnV x0 x1 (ix2 r d) = ∑ k : Fin 2048, Cert.Spec.exB x0 x1 r k * x1 (ix3 0 k d) := by
  unfold ctxUnV
  refine (Cert.LibDense.matmul_plain_apply dot_S512x2048_S2048x1024_S512x1024_1_0_0_1_n_n rfl none _ _ r d).trans ?_
  refine Finset.sum_congr rfl fun k _ => ?_
  exact congrArg₂ (· * ·) (exV_apply x0 x1 r k) (dropUnit3_apply _ _ k d)

theorem ctxV_apply (r : Fin 512) (d : Fin 1024) :
    ctxV x0 x1 (ix2 r d) = (∑ k : Fin 2048, Cert.Spec.exB x0 x1 r k * x1 (ix3 0 k d)) * Ideal.div Cert.Spec.wOne (Cert.Spec.denB x0 x1 r) := by
  unfold ctxV
  show ctxUnV x0 x1 (ix2 r d) * broadcastTo S512x1024
    (divf (broadcast S512x1 (Scalar.ofBits .f32 0x3F800000#32)) (shapeCast S512x1 (denV x0 x1) shapeCasts_S512_S512x1)) broadcasts_S512x1_S512x1024 (ix2 r d) = _
  refine congrArg₂ (· * ·) (ctxUnV_apply x0 x1 r d) ?_
  refine (broadcastTo_col_apply _ _ r d).trans ?_
  show Ideal.div (Ideal.ofBits .f32 0x3F800000#32) (shapeCast S512x1 (denV x0 x1) shapeCasts_S512_S512x1 (ix2 r 0)) = _
  exact congrArg (Ideal.div Cert.Spec.wOne) ((Cert.LibDense.shapeCast_col_apply _ _ r 0).trans (denV_apply x0 x1 r))

end Stages

/-! ## The accumulating store's value -/

/-- The cleared row the first tile of a batch stores: the zero word at every lane. -/
theorem pay1_apply (i : S1x1x1024.Idx) : k0_pay1 (F := Ideal) i = Cert.Spec.wZero := rfl

/-- The accumulated row at lane `d`. -/
theorem pay2_apply (x0 : Vec Ideal S1x512x1024 .bf16) (x1 : Vec Ideal S1x2048x1024 .bf16) (acc : Vec Ideal S1x1x1024 .f32) (d : Fin 1024) :
    k0_pay2 (F := Ideal) x0 x1 acc (ix3 0 0 d) = acc (ix3 0 0 d) + Cert.Spec.tileB x0 x1 d * Cert.Spec.wInvN := by
  unfold k0_pay2
  dsimp only
  refine (addUnit3_apply _ _ 0 d).trans ?_
  show shapeCast S1x1024 acc shapeCasts_S1x1x1024_S1x1024 (ix2 0 d)
      + shapeCast S1x1024 (multiReduction .add [0] S1024 (ctxV x0 x1) 0x00000000#32 reduces_S512x1024_S1024 (.inl rfl) rfl) shapeCasts_S1024_S1x1024 (ix2 0 d)
        * Ideal.ofBits .f32 0x3A000000#32 = _
  unfold Cert.Spec.tileB
  refine congrArg₂ (fun a s => a + s * Cert.Spec.wInvN) (dropUnit3_apply _ _ 0 d) ?_
  refine (Cert.LibDense.shapeCast_row_apply _ _ 0 d).trans ?_
  refine (colSum_apply (ctxV x0 x1) _ reduces_S512x1024_S1024 _ _ d).trans ?_
  exact Finset.sum_congr rfl fun r _ => ctxV_apply x0 x1 r d

end Cert.KernelIdeal.Val

end
-- ==== Proof.KernelIdealValue.lean ====
/-
  What the kernel's row array ends holding, on the extended reals.

  Each case of the body leaves the accumulating store's value in the output's buffer: at a batch's first tile over the
  cleared row, at a later tile over what the point before left. The two input blocks at grid position `t` are the
  argument's rows: tile `t % 4` of batch `t / 4`, and the whole batch `t / 4` (the change of format before the region is
  the identity on the extended reals). So by induction on the position the output's buffer at lane `d` after position
  `t` is the specification's accumulator of batch `t / 4` after tile `t % 4`; the buffer is written back after a batch's
  last tile, into row `t / 4` of the row array, and those eight rows are the whole array.
-/
import proofs.«111131_j1657857376449_2_alg».proof.Proof.KernelIdealLaunch
import proofs.«111131_j1657857376449_2_alg».proof.Proof.KernelIdealPayload
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section Pieces

variable {F : FTy → Type} [FloatOps F]

theorem hz : (![0, 0, 0] : Fin 3 → Nat) = fun _ => 0 := funext fun a => by fin_cases a <;> rfl

/-- A later tile leaves the accumulating store's value over the running contents. -/
theorem outB_eq (c : Dev nD) (i : grid0.Coords) (a2 : Memref sig .tc .vmem S1x512x1024 .bf16) (h2 : a2.IsWhole)
    (a3 : Memref sig .tc .vmem S1x2048x1024 .bf16) (h3 : a3.IsWhole) (a4 : Memref sig .tc .vmem S1x1x1024 .f32) (h4 : a4.IsWhole)
    (hc : ¬cond0 i) (x0 : Vec F S1x512x1024 .bf16) (x1 : Vec F S1x2048x1024 .bf16) (xo : Vec F S1x1x1024 .f32) :
    outB c i a2 h2 a3 h3 a4 h4 hc x0 x1 xo = k0_pay2 x0 x1 xo := by
  unfold outB
  rw [View.read_writes_eq_canon _ _ _ (coverB c i a2 h2 a3 h3 a4 h4 hc x0 x1 xo)]
  unfold kernelRunB
  dsimp only
  rw [View.canon_unit_zero hz]
  simp only [View.readAt_eq_ld, h2.read_unread, h3.read_unread, h4.read_unread, View.ld_unit_zero (S := S1x512x1024) hz,
    View.ld_unit_zero (S := S1x2048x1024) hz, View.ld_unit_zero (S := S1x1x1024) hz]

/-- A batch's first tile leaves it over the cleared row (which the body stored and read back). -/
theorem outA_eq (c : Dev nD) (i : grid0.Coords) (a2 : Memref sig .tc .vmem S1x512x1024 .bf16) (h2 : a2.IsWhole)
    (a3 : Memref sig .tc .vmem S1x2048x1024 .bf16) (h3 : a3.IsWhole) (a4 : Memref sig .tc .vmem S1x1x1024 .f32) (h4 : a4.IsWhole)
    (hc : cond0 i) (x0 : Vec F S1x512x1024 .bf16) (x1 : Vec F S1x2048x1024 .bf16) :
    outA c i a2 h2 a3 h3 a4 h4 hc x0 x1 = k0_pay2 x0 x1 (k0_pay1 (F := F)) := by
  unfold outA
  rw [View.read_writes_eq_canon _ _ _ (coverA c i a2 h2 a3 h3 a4 h4 hc x0 x1)]
  unfold kernelRunA
  dsimp only
  sl_unfold_words
  rw [View.canon_cons_unit_zero (S := S1x1x1024) hz, View.readCov_unit_zero (S := S1x1x1024) _ hz]
  simp only [View.readAt_eq_ld, h2.read_unread, h3.read_unread, View.ld_unit_zero (S := S1x512x1024) hz,
    View.ld_unit_zero (S := S1x2048x1024) hz]

end Pieces

/-! ## At the ideal values -/

section AtIdeal

variable (m : (ℓ : Loc nD τ sig) → Buf (Elt Ideal) ℓ) (ρ : Dev nD → PrngReg)

/-- The argument array of core `c`. -/
abbrev argX (c : Dev nD) : Cert.Spec.Arg := m ((c.tc : Thread nD τ).loc main_arg0)

/-- The array the region reads is the argument array: the change of format before the region is the identity. -/
theorem V_v0 (c : Dev nD) : (V m c main_v0 : S8x2048x1024.Idx → EReal) = argX m c := by
  show StableHlo.after hostOps0 (fun b => m (c, b)) (Proc.devRef .tc main_v0) = _
  after_results
  rfl

/-- The printed index maps over the grid: position `t` is tile `t % 4` of batch `t / 4`. -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, win0_0.index t (0 : Fin 3) = t.val / 4 ∧ win0_0.index t (1 : Fin 3) = t.val % 4 ∧ win0_0.index t (2 : Fin 3) = 0)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, win0_1.index t (0 : Fin 3) = t.val / 4 ∧ win0_1.index t (1 : Fin 3) = 0 ∧ win0_1.index t (2 : Fin 3) = 0)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, win0_2.index t (0 : Fin 3) = t.val / 4 ∧ win0_2.index t (1 : Fin 3) = 0 ∧ win0_2.index t (2 : Fin 3) = 0)

/-- The batch of grid position `n`. -/
def batchOf (n : Nat) (hn : n < cfg0.N) : Fin 8 := ⟨n / 4, by have h : cfg0.N = 32 := N_0; omega⟩

/-- The tile block at position `t`, read at `(r, e)`: row `r` of tile `t % 4` of batch `t / 4`. -/
theorem iblk0_apply (c : Dev nD) (t : Fin cfg0.N) (r : Fin 512) (e : Fin 1024) :
    (iblk m c 0 t : Vec Ideal S1x512x1024 .bf16) (ix3 0 r e) = argX m c (ix3 (batchOf t.val t.isLt) (Cert.Spec.row (t.val % 4) r) e) := by
  unfold iblk
  rw [View.read_apply]
  show V m c main_v0 _ = _
  rw [V_v0]
  refine congrArg (argX m c) (funext fun a => Fin.ext ?_)
  have hr := r.isLt
  match a with
  | ⟨0, _⟩ => show win0_0.index t (0 : Fin 3) * 1 + 1 * 0 = t.val / 4; rw [(idx0 t).1]; omega
  | ⟨1, _⟩ =>
    show win0_0.index t (1 : Fin 3) * 512 + 1 * r.val = (512 * (t.val % 4) + r.val) % 2048
    rw [(idx0 t).2.1]; omega
  | ⟨2, _⟩ => show win0_0.index t (2 : Fin 3) * 1024 + 1 * e.val = e.val; rw [(idx0 t).2.2]; omega

/-- The key block at position `t`, read at `(k, e)`: row `k` of batch `t / 4`. -/
theorem iblk1_apply (c : Dev nD) (t : Fin cfg0.N) (k : Fin 2048) (e : Fin 1024) :
    (iblk m c 1 t : Vec Ideal S1x2048x1024 .bf16) (ix3 0 k e) = argX m c (ix3 (batchOf t.val t.isLt) k e) := by
  unfold iblk
  rw [View.read_apply]
  show V m c main_v0 _ = _
  rw [V_v0]
  refine congrArg (argX m c) (funext fun a => Fin.ext ?_)
  match a with
  | ⟨0, _⟩ => show win0_1.index t (0 : Fin 3) * 1 + 1 * 0 = t.val / 4; rw [(idx1 t).1]; omega
  | ⟨1, _⟩ => show win0_1.index t (1 : Fin 3) * 2048 + 1 * k.val = k.val; rw [(idx1 t).2.1]; omega
  | ⟨2, _⟩ => show win0_1.index t (2 : Fin 3) * 1024 + 1 * e.val = e.val; rw [(idx1 t).2.2]; omega

/-- One grid point's contribution is the specification's, for its batch and tile. -/
theorem tile_eq (c : Dev nD) (t : Fin cfg0.N) (d : Fin 1024) :
    Cert.Spec.tileB (iblk m c 0 t : Vec Ideal S1x512x1024 .bf16) (iblk m c 1 t : Vec Ideal S1x2048x1024 .bf16) d
      = Cert.Spec.tilePart (argX m c) (batchOf t.val t.isLt) (t.val % 4) d := by
  unfold Cert.Spec.tileB Cert.Spec.tilePart Cert.Spec.denB Cert.Spec.den Cert.Spec.exB Cert.Spec.ex Cert.Spec.rowMaxB Cert.Spec.rowMax
    Cert.Spec.scoreB Cert.Spec.score
  simp only [iblk0_apply, iblk1_apply]

/-- THE ACCUMULATION: after position `n` the output's buffer holds, at lane `d`, the specification's accumulator of
    batch `n / 4` after tile `n % 4` — by induction on the position. -/
theorem outsAt_val (c : Dev nD) : ∀ (n : ℕ) (hn : n < cfg0.N) (d : Fin 1024),
    outsAt m c n hn (ix3 0 0 d) = Cert.Spec.accUpTo (argX m c) (batchOf n hn) d (n % 4)
  | 0, hn, d => by
    rw [outsAt_A m c ⟨0, hn⟩ rfl, outA_eq, Cert.KernelIdeal.Val.pay2_apply, Cert.KernelIdeal.Val.pay1_apply, tile_eq]
    rfl
  | n + 1, hn, d => by
    have hN : cfg0.N = 32 := N_0
    by_cases h0 : (n + 1) % 4 = 0
    · rw [outsAt_A m c ⟨n + 1, hn⟩ h0, outA_eq, Cert.KernelIdeal.Val.pay2_apply, Cert.KernelIdeal.Val.pay1_apply, tile_eq]
      show Cert.Spec.wZero + Cert.Spec.tilePart (argX m c) (batchOf (n + 1) hn) ((n + 1) % 4) d * Cert.Spec.wInvN
        = Cert.Spec.accUpTo (argX m c) (batchOf (n + 1) hn) d ((n + 1) % 4)
      rw [h0]
      rfl
    · rw [outsAt_B m c ⟨n + 1, hn⟩ h0, outB_eq, Cert.KernelIdeal.Val.pay2_apply, tile_eq]
      show outsAt m c n (Nat.lt_of_succ_lt hn) (ix3 0 0 d) + Cert.Spec.tilePart (argX m c) (batchOf (n + 1) hn) ((n + 1) % 4) d * Cert.Spec.wInvN
        = Cert.Spec.accUpTo (argX m c) (batchOf (n + 1) hn) d ((n + 1) % 4)
      rw [outsAt_val c n (Nat.lt_of_succ_lt hn) d]
      have e1 : (n + 1) % 4 = n % 4 + 1 := by omega
      have e2 : batchOf (n + 1) hn = batchOf n (Nat.lt_of_succ_lt hn) := Fin.ext (by show (n + 1) / 4 = n / 4; omega)
      rw [e1, e2]
      rfl

/-- What the row array ends holding: at `(b, 0, d)` the kernel's result for batch `b` and lane `d`. -/
def rowG (c : Dev nD) : Buf (Elt Ideal) ((c.tc : Thread nD τ).loc main_v1) :=
  fun y => Cert.Spec.kerOut (argX m c) (y 0) (y 2)

/-- What a batch's last tile writes back is row `t / 4` of that. -/
theorem flushed_eq (c : Dev nD) (t : Fin cfg0.N) (hf : (cfg0.win 2).flush t = true) :
    (dats m 0 c).flushed 2 t = ((cfg0.win 2).blk t).view.read (Elt Ideal) (rowG m c) := by
  have h3 : t.val % 4 = 3 := (flush0_2 t).mp hf
  show (cfg0.win 2).cut (grid0.coords t) ((dats m 0 c).after 2 t) = _
  rw [after2]
  funext j
  show outsAt m c t.val t.isLt j = rowG m c (((cfg0.win 2).blk t).view.emb j)
  have hj0 : (j 0).val < 1 := (j 0).isLt
  have hj1 : (j 1).val < 1 := (j 1).isLt
  have hj2 : (j 2).val < 1024 := (j 2).isLt
  have hj : j = (ix3 (0 : Fin 1) (0 : Fin 1) (⟨(j 2).val, hj2⟩ : Fin 1024) : S1x1x1024.Idx) := funext fun a => Fin.ext (by
    match a with
    | ⟨0, _⟩ => show (j 0).val = 0; omega
    | ⟨1, _⟩ => show (j 1).val = 0; omega
    | ⟨2, _⟩ => rfl)
  rw [hj, outsAt_val, h3]
  unfold rowG Cert.Spec.kerOut
  refine congrArg₂ (fun b d => Cert.Spec.accUpTo (argX m c) b d 3) (Fin.ext ?_) (Fin.ext ?_)
  · show t.val / 4 = win0_2.index t (0 : Fin 3) * 1 + 1 * 0
    rw [(idx2 t).1]; omega
  · show (j 2).val = win0_2.index t (2 : Fin 3) * 1024 + 1 * (j 2).val
    rw [(idx2 t).2.2]; omega

/-- Every entry of the row array is in the block some batch's last tile writes back. -/
theorem cover (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 32 := N_0
  have h0 : (i 0).val < 8 := (i 0).isLt
  have h1 : (i 1).val < 1 := (i 1).isLt
  have h2 : (i 2).val < 1024 := (i 2).isLt
  have ht : 4 * (i 0).val + 3 < cfg0.N := by omega
  obtain ⟨e0, e1, e2⟩ := idx2 ⟨4 * (i 0).val + 3, ht⟩
  refine ⟨⟨4 * (i 0).val + 3, ht⟩, (flush0_2 _).mpr (by show (4 * (i 0).val + 3) % 4 = 3; omega), ?_⟩
  show i ∈ ((View.whole main_v1).slice (win0_2.rect ⟨4 * (i 0).val + 3, ht⟩)).set
  rw [View.set_slice_whole, Rect.mem_set_unit]
  intro a
  match a with
  | ⟨0, _⟩ =>
    show win0_2.index ⟨4 * (i 0).val + 3, ht⟩ (0 : Fin 3) * 1 ≤ (i 0).val ∧ (i 0).val < win0_2.index ⟨4 * (i 0).val + 3, ht⟩ (0 : Fin 3) * 1 + 1
    rw [e0]; show (4 * (i 0).val + 3) / 4 * 1 ≤ (i 0).val ∧ (i 0).val < (4 * (i 0).val + 3) / 4 * 1 + 1; omega
  | ⟨1, _⟩ =>
    show win0_2.index ⟨4 * (i 0).val + 3, ht⟩ (1 : Fin 3) * 1 ≤ (i 1).val ∧ (i 1).val < win0_2.index ⟨4 * (i 0).val + 3, ht⟩ (1 : Fin 3) * 1 + 1
    rw [e1]; omega
  | ⟨2, _⟩ =>
    show win0_2.index ⟨4 * (i 0).val + 3, ht⟩ (2 : Fin 3) * 1024 ≤ (i 2).val ∧ (i 2).val < win0_2.index ⟨4 * (i 0).val + 3, ht⟩ (2 : Fin 3) * 1024 + 1024
    rw [e2]; omega

/-- So the row array ends at `rowG`. -/
theorem final_rows (c : Dev nD) : (dats m 0 c).arrAt 2 cfg0.N = rowG m c :=
  (dats m 0 c).arrAt_eq_of_cover 2 (rowG m c) (flushed_eq m c) (cover c)

/-- The result array: the row array reshaped, at `(b, d)` the kernel's result for batch `b` and lane `d`. -/
theorem tailVal_apply (c : Dev nD) (i : S8x1024.Idx) :
    tailVal m c i = Cert.Spec.kerOut (argX m c) (i 0) (i 1) := by
  unfold tailVal
  rw [final_rows]
  obtain ⟨b, d, rfl⟩ : ∃ (b : Fin 8) (d : Fin 1024), i = ix2 b d := ⟨i 0, i 1, eq_ix2 i⟩
  refine (shapeCast_apply (rowG m c) shapeCasts_S8x1x1024_S8x1024 (ix2 b d) (ix3 b 0 d) ?_).trans rfl
  show ((⟨3, ![8, 1, 1024]⟩ : Shape).rowMajor (ix3 b (0 : Fin 1) d)).val = ((⟨2, ![8, 1024]⟩ : Shape).rowMajor (ix2 b d)).val
  rw [Shape.rowMajor_val_three, Shape.rowMajor_val_two]
  show (b.val * 1 + 0) * 1024 + d.val = b.val * 1024 + d.val
  omega

end AtIdeal

end Cert.KernelIdeal.Hand

end
-- ==== Proof.RefValue.lean ====
import proofs.«111131_j1657857376449_2_alg».proof.Proof.Gen.ReferenceIdeal.Read
import proofs.«111131_j1657857376449_2_alg».proof.Proof.Spec

/-!
# The reference program's value is the specification, index by index

For the argument array `x : [8, 2048, 1024]` at the extended-real values, the reference program computes, per batch `b`,
the scores `score q k = ∑ d, x[b,q,d] · x[b,k,d]`, each row's maximum `rowMax q` (a fold of `max` from `-∞` over the keys),
the weights `ex q k = exp (score q k − rowMax q)`, the denominators `den q = ∑ k, ex q k`, the normalised weights
`ex q k / den q`, their contraction with the values `∑ k, (ex q k / den q) · x[b,k,d]`, and the mean over the 2048 rows:
`(∑ q, ∑ k, (ex q k / den q) · x[b,k,d]) / 2048`.

Each stage is read at an index and identified with the corresponding term of the specification: the composed index maps
of the broadcasts, contractions and reductions are the coordinate triples `(b, q, k)`, `(b, q, d)`, `(b, k, d)` and
pairs `(b, q)`; the sums start from the zero word, which is `0`; and the maximum of `-∞` with a fold of `max` that starts
from `-∞` is that fold, since the starting value is below the fold.
-/

noncomputable section

namespace Cert.ReferenceIdeal.RefValue

open Cert.ReferenceIdeal Cert.ReferenceIdeal.Gen Cert.ReferenceIdeal.Read Idealize.ShloMosaic Idealize.ShloMosaic.ValueIdx

/-- The first stage at `(b, q, k)` is the score `∑ d, x[b,q,d] · x[b,k,d]`. -/
theorem score_eq (x0 : (⟨S8x2048x1024, .f32⟩ : BufTy).Contents (Elt Ideal)) (b : Fin 8) (q k : Fin 2048) :
    val_main_v0 (F := Ideal) x0 (ix3 b q k) = Cert.Spec.score x0 b q k := by
  rw [val_main_v0_apply]
  unfold Cert.Spec.score
  refine Finset.sum_congr rfl fun d _ => ?_
  have el : lidx_main_v0 (ix3 b q k) d = ix3 b q d :=
    funext fun a => Fin.ext (by match a with | ⟨0, _⟩ => rfl | ⟨1, _⟩ => rfl | ⟨2, _⟩ => rfl)
  have er : ridx_main_v0 (ix3 b q k) d = ix3 b k d :=
    funext fun a => Fin.ext (by match a with | ⟨0, _⟩ => rfl | ⟨1, _⟩ => rfl | ⟨2, _⟩ => rfl)
  rw [el, er]

/-- The third stage at `(b, q)` is the row maximum: the fold of `max` from `-∞` over the row's scores. -/
theorem rowMax_eq (x0 : (⟨S8x2048x1024, .f32⟩ : BufTy).Contents (Elt Ideal)) (b : Fin 8) (q : Fin 2048) :
    val_main_v3 (F := Ideal) x0 (ix2 b q) = Cert.Spec.rowMax x0 b q := by
  have h : S8x2048x2048.Reduces [2] S8x2048 := by decide
  have hl : ∀ k : Fin 2048, h.lift (ix2 b q) k = ix3 b q k := fun k =>
    funext fun c => Fin.ext (by fin_cases c <;> rfl)
  rw [val_main_v3_apply, val_main_v2_apply, val_main_cst_0_apply, Ideal.maximumf_def]
  unfold val_main_v1
  have hr := Host.reduce_eq_fold_single (FloatOps.maximumf (F := Ideal) (φ := .f32)) (val_main_v0 (F := Ideal) x0)
    (val_main_cst (F := Ideal)) reducesTo_S8x2048x2048_S8x2048_d2 h h_S_ (ix2 b q)
  rw [hr, val_main_cst_apply]
  have hf : (val_main_v0 (F := Ideal) x0 ∘ h.lift (ix2 b q)) = fun k : Fin 2048 => Cert.Spec.score x0 b q k :=
    funext fun k => (congrArg (val_main_v0 (F := Ideal) x0) (hl k)).trans (score_eq x0 b q k)
  rw [hf]
  unfold Cert.Spec.rowMax
  exact max_eq_right ((Finset.le_fold_max _).mpr (Or.inl le_rfl))

/-- The seventh stage at `(b, q, k)` is the unnormalised weight `exp (score − rowMax)`. -/
theorem ex_eq (x0 : (⟨S8x2048x1024, .f32⟩ : BufTy).Contents (Elt Ideal)) (b : Fin 8) (q k : Fin 2048) :
    val_main_v7 (F := Ideal) x0 (ix3 b q k) = Cert.Spec.ex x0 b q k := by
  have e : idx_main_v4 (idx_main_v5 (ix3 b q k)) = ix2 b q :=
    funext fun a => Fin.ext (by match a with | ⟨0, _⟩ => rfl | ⟨1, _⟩ => rfl)
  rw [val_main_v7_apply, Ideal.hostUnary_exp_def, val_main_v6_apply, Ideal.subf_def, val_main_v5_apply,
    val_main_v4_apply, e, rowMax_eq, score_eq]
  rfl

/-- The eighth stage at `(b, q)` is the row's denominator `∑ k, exp (score − rowMax)`. -/
theorem den_eq (x0 : (⟨S8x2048x1024, .f32⟩ : BufTy).Contents (Elt Ideal)) (b : Fin 8) (q : Fin 2048) :
    val_main_v8 (F := Ideal) x0 (ix2 b q) = Cert.Spec.den x0 b q := by
  rw [val_main_v8_apply, val_main_cst_1_apply]
  show Ideal.ofBits .f32 0x00000000#32 + _ = _
  rw [Ideal.ofBits_zero_f32, zero_add]
  unfold Cert.Spec.den
  refine Finset.sum_congr rfl fun k _ => ?_
  have e : idx_main_v8 (ix2 b q) k = ix3 b q k :=
    funext fun a => Fin.ext (by match a with | ⟨0, _⟩ => rfl | ⟨1, _⟩ => rfl | ⟨2, _⟩ => rfl)
  rw [e, ex_eq]

/-- The eleventh stage at `(b, q, k)` is the normalised weight `ex / den`. -/
theorem wt_eq (x0 : (⟨S8x2048x1024, .f32⟩ : BufTy).Contents (Elt Ideal)) (b : Fin 8) (q k : Fin 2048) :
    val_main_v11 (F := Ideal) x0 (ix3 b q k) = Ideal.div (Cert.Spec.ex x0 b q k) (Cert.Spec.den x0 b q) := by
  have e : idx_main_v9 (idx_main_v10 (ix3 b q k)) = ix2 b q :=
    funext fun a => Fin.ext (by match a with | ⟨0, _⟩ => rfl | ⟨1, _⟩ => rfl)
  rw [val_main_v11_apply, Ideal.hostDivf_def, val_main_v10_apply, val_main_v9_apply, e, den_eq, ex_eq]

/-- The twelfth stage at `(b, q, d)` is the row's weighted value `∑ k, (ex / den) · x[b,k,d]`. -/
theorem row_eq (x0 : (⟨S8x2048x1024, .f32⟩ : BufTy).Contents (Elt Ideal)) (b : Fin 8) (q : Fin 2048) (d : Fin 1024) :
    val_main_v12 (F := Ideal) x0 (ix3 b q d)
      = ∑ k : Fin 2048, Ideal.div (Cert.Spec.ex x0 b q k) (Cert.Spec.den x0 b q) * x0 (ix3 b k d) := by
  rw [val_main_v12_apply]
  refine Finset.sum_congr rfl fun k _ => ?_
  have el : lidx_main_v12 (ix3 b q d) k = ix3 b q k :=
    funext fun a => Fin.ext (by match a with | ⟨0, _⟩ => rfl | ⟨1, _⟩ => rfl | ⟨2, _⟩ => rfl)
  have er : ridx_main_v12 (ix3 b q d) k = ix3 b k d :=
    funext fun a => Fin.ext (by match a with | ⟨0, _⟩ => rfl | ⟨1, _⟩ => rfl | ⟨2, _⟩ => rfl)
  rw [el, er, wt_eq]

/-- The reference program's last stage is the specification, index by index: at `(b, d)` it is
    `(∑ q, ∑ k, (ex q k / den q) · x[b,k,d]) / 2048`. -/
theorem ref_eq (x0 : (⟨S8x2048x1024, .f32⟩ : BufTy).Contents (Elt Ideal)) (i : S8x1024.Idx) :
    val_main_v15 (F := Ideal) x0 i = Cert.Spec.refOut x0 (i 0) (i 1) := by
  obtain ⟨b, d, rfl⟩ : ∃ (b : Fin 8) (d : Fin 1024), i = ix2 b d := ⟨i 0, i 1, eq_ix2 i⟩
  show val_main_v15 (F := Ideal) x0 (ix2 b d) = Cert.Spec.refOut x0 b d
  rw [val_main_v15_apply, Ideal.hostDivf_def, val_main_v13_apply, val_main_cst_2_apply, val_main_v14_apply,
    val_main_cst_3_apply]
  show Ideal.div (Ideal.ofBits .f32 0x00000000#32 + _) (Ideal.ofBits .f32 0x45000000#32) = _
  rw [Ideal.ofBits_zero_f32, zero_add]
  unfold Cert.Spec.refOut
  congr 1
  refine Finset.sum_congr rfl fun q _ => ?_
  have e : idx_main_v13 (ix2 b d) q = ix3 b q d :=
    funext fun a => Fin.ext (by match a with | ⟨0, _⟩ => rfl | ⟨1, _⟩ => rfl | ⟨2, _⟩ => rfl)
  rw [e, row_eq]

end Cert.ReferenceIdeal.RefValue

end
-- ==== Proof.Consts.lean ====
/-
  The float words the two programs spell, as the extended reals they denote: `-∞`, `0`, `1`, `2⁻¹¹ = 1/2048`, `2048`.
-/
import proofs.«111131_j1657857376449_2_alg».proof.Proof.Spec

noncomputable section

namespace Cert.Spec

open Idealize.ShloMosaic

theorem wZero_eq : wZero = 0 := by
  simp [wZero, Ideal.ofBits, Ideal.ieee]

theorem wOne_eq : wOne = ((1 : ℝ) : EReal) := by
  simp [wOne, Ideal.ofBits, Ideal.ieee, -EReal.coe_mul]; norm_num

theorem wN_eq : wN = ((2048 : ℝ) : EReal) := by
  simp [wN, Ideal.ofBits, Ideal.ieee, -EReal.coe_mul]; norm_num

theorem wInvN_eq : wInvN = ((1 / 2048 : ℝ) : EReal) := by
  simp [wInvN, Ideal.ofBits, Ideal.ieee, -EReal.coe_mul]; norm_num

theorem wNegInf_eq : wNegInf = ⊥ := by
  simp [wNegInf, Ideal.ofBits, Ideal.ieee]

end Cert.Spec

end
-- ==== Proof.LibSoftmaxPool.lean ====
import Mathlib
import Idealize.ShloMosaic.PureOps.Ideal

/-!
# Softmax-weighted average pooling: late versus early normalisation

Over the extended reals, a softmax-weighted average of real values `X k`, pooled over all rows of
four tiles, is computed in two arrangements.  With positive real weights `E j r k`:

* late normalisation, tile by tile: each tile contributes
  `(∑ r, (∑ k, E j r k * X k) * (1 / ∑ k, E j r k)) * (1 / 2048)`, added left to right onto `0`;
* early normalisation: every weight is first divided by its row sum, the products with `X k` are
  summed over keys, rows and tiles, and the total is divided by `2048`.

Every entry is real and every row sum is a finite sum of positive reals over a nonempty index type,
hence a nonzero real.  So both sides are coercions of real numbers, and in `ℝ` the identity is
distributivity of multiplication over finite sums.
-/

namespace Cert.LibSoftmaxPool

/-- The coercion `ℝ → EReal` commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-- The real identity behind the pooling law: summing, tile by tile, the row quotients
`(∑ k, e j r k * x k) / (∑ k, e j r k)` scaled by `1 / 2048` equals the total over tiles, rows and
keys of the normalised weights `e j r k / (∑ k', e j r k')` times `x k`, scaled by `1 / 2048`. -/
theorem pool_law_real {R K : Type} [Fintype R] [Fintype K]
    (e : Fin 4 → R → K → ℝ) (x : K → ℝ) :
    ((((0 : ℝ)
        + (∑ r, (∑ k, e 0 r k * x k) * (1 / ∑ k, e 0 r k)) * (1 / 2048))
        + (∑ r, (∑ k, e 1 r k * x k) * (1 / ∑ k, e 1 r k)) * (1 / 2048))
        + (∑ r, (∑ k, e 2 r k * x k) * (1 / ∑ k, e 2 r k)) * (1 / 2048))
        + (∑ r, (∑ k, e 3 r k * x k) * (1 / ∑ k, e 3 r k)) * (1 / 2048)
      = (∑ j, ∑ r, ∑ k, e j r k * (1 / ∑ k', e j r k') * x k) * (1 / 2048) := by
  have h : ∀ j r, ∑ k, e j r k * (1 / ∑ k', e j r k') * x k
      = (∑ k, e j r k * x k) * (1 / ∑ k, e j r k) := by
    intro j r
    rw [Finset.sum_mul]
    refine Finset.sum_congr rfl fun k _ => ?_
    ring
  simp only [h]
  rw [Fin.sum_univ_four]
  ring

/-- Pooling law.  For positive real weights `E j r k` and real values `X k`, accumulating tile by
tile the late-normalised row averages `(∑ k, E j r k * X k) * (1 / ∑ k, E j r k)`, each tile's sum
scaled by `c = 1 / 2048`, gives the same extended real as summing the early-normalised products
`(E j r k / ∑ k', E j r k') * X k` over all tiles, rows and keys and dividing by `n = 2048`. -/
theorem pool_law {R K : Type} [Fintype R] [Fintype K] [Nonempty K]
    (E : Fin 4 → R → K → EReal) (X : K → EReal) (one c n : EReal)
    (hone : one = ((1 : ℝ) : EReal)) (hc : c = ((1 / 2048 : ℝ) : EReal)) (hn : n = ((2048 : ℝ) : EReal))
    (hE : ∀ j r k, ∃ a : ℝ, 0 < a ∧ E j r k = (a : EReal))
    (hX : ∀ k, ∃ a : ℝ, X k = (a : EReal)) :
    ((((0 : EReal)
        + (∑ r, (∑ k, E 0 r k * X k) * Idealize.ShloMosaic.Ideal.div one (∑ k, E 0 r k)) * c)
        + (∑ r, (∑ k, E 1 r k * X k) * Idealize.ShloMosaic.Ideal.div one (∑ k, E 1 r k)) * c)
        + (∑ r, (∑ k, E 2 r k * X k) * Idealize.ShloMosaic.Ideal.div one (∑ k, E 2 r k)) * c)
        + (∑ r, (∑ k, E 3 r k * X k) * Idealize.ShloMosaic.Ideal.div one (∑ k, E 3 r k)) * c
      = Idealize.ShloMosaic.Ideal.div (∑ j, ∑ r, ∑ k, Idealize.ShloMosaic.Ideal.div (E j r k) (∑ k', E j r k') * X k) n := by
  choose e he_pos he_eq using hE
  choose x hx using hX
  subst hone hc hn
  have hpos : ∀ j r, 0 < ∑ k, e j r k := fun j r =>
    Finset.sum_pos (fun k _ => he_pos j r k) Finset.univ_nonempty
  have hne : ∀ j r, (∑ k, e j r k) ≠ 0 := fun j r => (hpos j r).ne'
  -- each late-normalised row average is the coercion of a real
  have hrow : ∀ j r, (∑ k, E j r k * X k) * Idealize.ShloMosaic.Ideal.div ((1 : ℝ) : EReal) (∑ k, E j r k)
      = (((∑ k, e j r k * x k) * (1 / ∑ k, e j r k) : ℝ) : EReal) := by
    intro j r
    simp only [he_eq, hx]
    rw [← coe_sum, Idealize.ShloMosaic.Ideal.div_coe (hne j r)]
    simp only [← EReal.coe_mul]
    rw [← coe_sum, ← EReal.coe_mul, one_mul]
  -- each early-normalised product is the coercion of a real
  have hterm : ∀ j r k, Idealize.ShloMosaic.Ideal.div (E j r k) (∑ k', E j r k') * X k
      = ((e j r k * (1 / ∑ k', e j r k') * x k : ℝ) : EReal) := by
    intro j r k
    simp only [he_eq, hx]
    rw [← coe_sum, Idealize.ShloMosaic.Ideal.div_coe (hne j r), ← EReal.coe_mul, ← EReal.coe_mul]
  simp only [hrow, hterm]
  simp only [← coe_sum]
  rw [Idealize.ShloMosaic.Ideal.div_coe (by norm_num : (2048 : ℝ) ≠ 0)]
  simp only [← EReal.coe_mul]
  rw [← EReal.coe_zero]
  simp only [← EReal.coe_add]
  rw [EReal.coe_eq_coe_iff]
  exact pool_law_real e x

end Cert.LibSoftmaxPool
-- ==== Proof.Bridge.lean ====
/-
  The kernel's result and the reference's result are one function of a finite argument array.

  When every entry of `x` is real, every score is a real, a row's maximum (a fold of `max` from `-∞` over 2048 reals) is
  a real, every unnormalised weight `exp (score − max)` is a positive real, and every entry read is real. The 2048
  rows of a batch are the 512 rows of its four tiles. With these the two arrangements — normalise late and accumulate
  tile by tile, or normalise each weight and average over all rows — are the two sides of the pooling law.
-/
import proofs.«111131_j1657857376449_2_alg».proof.Proof.Spec
import proofs.«111131_j1657857376449_2_alg».proof.Proof.Consts
import proofs.«111131_j1657857376449_2_alg».proof.Proof.LibSoftmaxPool

noncomputable section

namespace Cert.Spec

open Idealize.ShloMosaic Idealize.ShloMosaic.ValueIdx

section Finite

variable (x : Arg) (hx : ∀ i, ∃ a : ℝ, x i = (a : EReal))

include hx

/-- A score is a real. -/
theorem score_real (b : Fin 8) (q k : Fin 2048) : ∃ s : ℝ, score x b q k = (s : EReal) := by
  choose f hf using hx
  refine ⟨∑ d : Fin 1024, f (ix3 b q d) * f (ix3 b k d), ?_⟩
  unfold score
  rw [Cert.LibSoftmaxPool.coe_sum]
  exact Finset.sum_congr rfl fun d _ => by rw [hf, hf, EReal.coe_mul]

/-- A row's maximum is a real: the largest of its 2048 scores. -/
theorem rowMax_real (b : Fin 8) (q : Fin 2048) : ∃ M : ℝ, rowMax x b q = (M : EReal) := by
  choose s hs using score_real x hx b q
  have hne : (Finset.univ : Finset (Fin 2048)).Nonempty := ⟨0, Finset.mem_univ _⟩
  refine ⟨Finset.univ.sup' hne s, ?_⟩
  unfold rowMax
  rw [wNegInf_eq]
  apply le_antisymm
  · rw [Finset.fold_max_le]
    refine ⟨bot_le, fun k _ => ?_⟩
    rw [hs k, EReal.coe_le_coe_iff]
    exact Finset.le_sup' s (Finset.mem_univ k)
  · rw [Finset.le_fold_max]
    obtain ⟨k, _, hk⟩ := Finset.exists_mem_eq_sup' hne s
    exact Or.inr ⟨k, Finset.mem_univ k, by rw [hs k, hk]⟩

/-- An unnormalised weight is a positive real. -/
theorem ex_pos_real (b : Fin 8) (q k : Fin 2048) : ∃ a : ℝ, 0 < a ∧ ex x b q k = (a : EReal) := by
  obtain ⟨s, hs⟩ := score_real x hx b q k
  obtain ⟨M, hM⟩ := rowMax_real x hx b q
  refine ⟨Real.exp (s - M), Real.exp_pos _, ?_⟩
  unfold ex
  rw [hs, hM, ← EReal.coe_sub]
  rfl

omit hx in
/-- A sum over the 2048 rows of a batch, taken tile by tile. -/
theorem sum_rows {M : Type} [AddCommMonoid M] (f : Fin 2048 → M) :
    ∑ q, f q = ∑ j : Fin 4, ∑ r : Fin 512, f (row j.val r) := by
  rw [← Equiv.sum_comp (finProdFinEquiv : Fin 4 × Fin 512 ≃ Fin (4 * 512)) f, Fintype.sum_prod_type]
  refine Finset.sum_congr rfl fun j _ => Finset.sum_congr rfl fun r _ => congrArg f (Fin.ext ?_)
  show r.val + 512 * j.val = (512 * j.val + r.val) % 2048
  have := j.isLt; have := r.isLt; omega

/-- THE BRIDGE: on a finite argument the kernel's result is the reference's. -/
theorem ker_eq_ref (b : Fin 8) (d : Fin 1024) : kerOut x b d = refOut x b d := by
  have hE : ∀ (j : Fin 4) (r : Fin 512) (k : Fin 2048), ∃ a : ℝ, 0 < a ∧ ex x b (row j.val r) k = (a : EReal) :=
    fun j r k => ex_pos_real x hx b _ k
  have hX : ∀ k : Fin 2048, ∃ a : ℝ, x (ix3 b k d) = (a : EReal) := fun k => hx _
  have h := Cert.LibSoftmaxPool.pool_law (fun (j : Fin 4) (r : Fin 512) (k : Fin 2048) => ex x b (row j.val r) k)
    (fun k : Fin 2048 => x (ix3 b k d)) wOne wInvN wN wOne_eq wInvN_eq wN_eq hE hX
  unfold refOut
  rw [sum_rows]
  refine Eq.trans ?_ (h.trans ?_)
  · show (((wZero + tilePart x b 0 d * wInvN) + tilePart x b 1 d * wInvN) + tilePart x b 2 d * wInvN) + tilePart x b 3 d * wInvN = _
    rw [wZero_eq]
    rfl
  · rfl

end Finite

end Cert.Spec

end
-- ==== Proof.Finite.lean ====
/-
  The precondition read back: when `finite_inputs` of an array is all ones, every entry of the array is a real.

  The predicate is `all (|x| < +∞)`: a reduction by `and` of the comparisons, from the constant one. It being one
  makes every comparison one, so `max (x i) (−x i) < ⊤`, which excludes both infinities.
-/
import proofs.«111131_j1657857376449_2_alg».proof.Pre_finite_inputs
import proofs.«111131_j1657857376449_2_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Decode

open Idealize.ShloMosaic Cert.Pre_finite_inputs

instance : Subsingleton S_.Idx := ⟨fun a b => funext fun d => d.elim0⟩

/-- The word `0x7F800000` is `+∞`. -/
theorem wInf_eq : Ideal.ofBits .f32 0x7F800000#32 = (⊤ : EReal) := by
  simp [Ideal.ofBits, Ideal.ieee]

/-- An extended real whose absolute value is below `+∞` is a real. -/
theorem real_of_abs_lt_top (y : EReal) (h : max y (-y) < ⊤) : ∃ a : ℝ, y = (a : EReal) := by
  induction y using EReal.rec with
  | bot => simp at h
  | top => simp at h
  | coe a => exact ⟨a, rfl⟩

theorem finite_of_pre [Facts] (x : FVec Ideal S8x2048x1024 .f32)
    (h : fn (F := Ideal) x = fun _ => 1#1) (i : S8x2048x1024.Idx) : ∃ a : ℝ, x i = (a : EReal) := by
  have h0 := congrFun h ValueIdx.ix0
  dsimp only [fn] at h0
  have hi := Host.reduce_andi_all _ _ _ _ _ h0 i
  refine real_of_abs_lt_top (x i) ?_
  have hc : Ideal.cmp .olt (max (x i) (-(x i))) (Ideal.ofBits .f32 0x7F800000#32) = 1#1 := hi
  rw [wInf_eq] at hc
  change BitVec.ofBool (decide (max (x i) (-(x i)) < (⊤ : EReal))) = 1#1 at hc
  by_contra hn
  rw [decide_eq_false hn] at hc
  exact absurd hc (by decide)

end Cert.Pre_finite_inputs.Decode

end
-- ==== Proof.lean ====
/-
  The proof of the certificate's claim: an attention layer pooled over its rows — `softmax(x xᵀ) x` averaged over the
  2048 rows of each batch — computed by a tiled kernel and by a plain reference.

  The kernel clears a row accumulator at a batch's first tile and adds, per tile of 512 query rows, the sum over the
  tile's rows of `(∑ k, exp(s_k − max s) · x_k) · (1 / ∑ k, exp(s_k − max s))`, scaled by `2⁻¹¹`; the reference
  normalises every weight, contracts, sums the 2048 rows and divides by 2048. On the extended reals, for an argument
  whose entries are all real, both are the same number: every weight is a positive real, every row's sum of weights a
  nonzero real, and the identity is distributivity of the real product over finite sums (`Cert.Spec.ker_eq_ref`).

  The three programs run: the two kernel programs by the launch of their one region, whose two input windows read one
  array (held at its two half shares) and whose output row is accumulated across the tile axis; the reference by its
  straight line of operations. The ideal pass rewrote nothing, so `preserves` has nothing to state.
-/
import proofs.«111131_j1657857376449_2_alg».proof.Defs
import proofs.«111131_j1657857376449_2_alg».proof.Proof.Gen.Kernel
import proofs.«111131_j1657857376449_2_alg».proof.Proof.Gen.KernelIdeal
import proofs.«111131_j1657857376449_2_alg».proof.Proof.Gen.ReferenceIdeal
import proofs.«111131_j1657857376449_2_alg».proof.Proof.Gen.Pre_finite_inputs
import proofs.«111131_j1657857376449_2_alg».proof.Proof.Gen.ReferenceIdeal.Run
import proofs.«111131_j1657857376449_2_alg».proof.Proof.Gen.ReferenceIdeal.Read
import proofs.«111131_j1657857376449_2_alg».proof.Proof.KernelLaunch
import proofs.«111131_j1657857376449_2_alg».proof.Proof.KernelIdealValue
import proofs.«111131_j1657857376449_2_alg».proof.Proof.RefValue
import proofs.«111131_j1657857376449_2_alg».proof.Proof.Bridge
import proofs.«111131_j1657857376449_2_alg».proof.Proof.Finite
import Idealize.ShloMosaic.Adequacy
import Idealize.ShloMosaic.Init

noncomputable section

namespace Cert.Proof

open Idealize.ShloMosaic Idealize.SL.Sem

section Claims

variable [hK : Cert.Kernel.Facts] [hKI : Cert.KernelIdeal.Facts] [hR : Cert.ReferenceIdeal.Facts] [hP : Cert.Pre_finite_inputs.Facts]

/-- The word-level kernel program runs and leaves its argument as it was. -/
theorem frame_p : Cert.frame_Kernel := fun m ρ _ =>
  (θ_run Cert.Kernel.defs _ _).mono (fun _ h c => (h c).2) (Cert.Kernel.Hand.run_main m ρ)

/-- So does its idealization. -/
theorem frame_pi : Cert.frame_KernelIdeal := fun m ρ _ =>
  (θ_run Cert.KernelIdeal.defs _ _).mono (fun _ h c => (h c).2) (Cert.KernelIdeal.Hand.run_main m ρ)

/-- And the reference: its straight line of operations. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on a finite argument, both idealized programs end with the same result array: at `(b, d)`
    the kernel's accumulated row average is the reference's. -/
theorem algebraic : Cert.algebraic_KernelIdeal_ReferenceIdeal := by
  intro m ρ m' ρ' hpre hagree
  refine ⟨fun c => Cert.KernelIdeal.Hand.tailVal m c, ?_, ?_⟩
  · exact (θ_run Cert.KernelIdeal.defs _ _).mono (fun _ h c => h c) (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, hagree c]
    funext i
    refine (Cert.ReferenceIdeal.RefValue.ref_eq _ i).trans ?_
    refine Eq.trans ?_ (Cert.KernelIdeal.Hand.tailVal_apply m c i).symm
    exact (Cert.Spec.ker_eq_ref _ (Cert.Pre_finite_inputs.Decode.finite_of_pre _ (hpre c)) (i 0) (i 1)).symm

end Claims

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
